-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x100 : Shape := ⟨2, ![4096, 100]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x100 : S_.BroadcastsInDim S4096x100 (![] : Fin 0 → Fin S4096x100.rank)
  reducesTo_S4096x100_S_d0_1 : S4096x100.ReducesTo [0, 1] S_

variable [Facts]

def fn {F : FTy → Type} [FloatOps F] (main_arg0 : FVec F S4096x256 .f32) (main_arg1 : FVec F S4096x100 .f32) (main_arg2 : FVec F S4096x100 .f32) (main_arg3 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x100 .f32 := Host.absf main_arg1
  let main_cst_0 : FVec F S_ .f32 := constant S_ .f32 0x7F800000#32
  let main_v5 : FVec F S4096x100 .f32 := broadcastInDim S4096x100 ![] bcast_S_S4096x100 main_cst_0
  let main_v6 : IVec S4096x100 1 := cmpf .olt main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  let main_v9 : FVec F S4096x100 .f32 := Host.absf main_arg2
  let main_cst_2 : FVec F S_ .f32 := constant S_ .f32 0x7F800000#32
  let main_v10 : FVec F S4096x100 .f32 := broadcastInDim S4096x100 ![] bcast_S_S4096x100 main_cst_2
  let main_v11 : IVec S4096x100 1 := cmpf .olt main_v9 main_v10
  let main_c_3 : IVec S_ 1 := constantI S_ 1 1#1
  let main_v12 : IVec S_ 1 := (fun x v => Host.reduce IntOp.andi x v reducesTo_S4096x100_S_d0_1 h_S_) main_v11 main_c_3
  let main_v13 : IVec S_ 1 := andi main_v8 main_v12
  main_v13
-- ==== Kernel.lean ====
abbrev S4096x256 : Shape := ⟨2, ![4096, 256]⟩
abbrev S4096x100 : Shape := ⟨2, ![4096, 100]⟩
abbrev S4096 : Shape := ⟨1, ![4096]⟩
abbrev S4096x4096 : Shape := ⟨2, ![4096, 4096]⟩
abbrev S4x8x128 : Shape := ⟨3, ![4, 8, 128]⟩
abbrev S1024x100 : Shape := ⟨2, ![1024, 100]⟩
abbrev S1024x512 : Shape := ⟨2, ![1024, 512]⟩
abbrev S1x8x128 : Shape := ⟨3, ![1, 8, 128]⟩
abbrev S1x1 : Shape := ⟨2, ![1, 1]⟩
abbrev S1024x256 : Shape := ⟨2, ![1024, 256]⟩
abbrev S512x256 : Shape := ⟨2, ![512, 256]⟩
abbrev S512x100 : Shape := ⟨2, ![512, 100]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S256x512 : Shape := ⟨2, ![256, 512]⟩
abbrev S100x512 : Shape := ⟨2, ![100, 512]⟩
abbrev S1 : Shape := ⟨1, ![1]⟩
abbrev S8x128 : Shape := ⟨2, ![8, 128]⟩
abbrev S16777216 : Shape := ⟨1, ![16777216]⟩
abbrev S4x1x1 : Shape := ⟨3, ![4, 1, 1]⟩
abbrev S4 : Shape := ⟨1, ![4]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x100, .f32⟩
  | .hbm, ⟨2, _⟩ => ⟨S4096x100, .f32⟩
  | .hbm, ⟨3, _⟩ => ⟨S4096, .i32⟩
  | .hbm, ⟨4, _⟩ => ⟨S4096x4096, .f32⟩
  | .hbm, ⟨5, _⟩ => ⟨S4x8x128, .f32⟩
  | .hbm, ⟨6, _⟩ => ⟨S16777216, .f32⟩
  | .hbm, ⟨7, _⟩ => ⟨S4x1x1, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x256, .f32⟩
  | .local _ .vmem, ⟨1, _⟩ => ⟨S4096x100, .f32⟩
  | .local _ .vmem, ⟨2, _⟩ => ⟨S1024x100, .f32⟩
  | .local _ .vmem, ⟨3, _⟩ => ⟨S1024x100, .f32⟩
  | .local _ .vmem, ⟨4, _⟩ => ⟨S1024x512, .f32⟩
  | .local _ .vmem, ⟨5, _⟩ => ⟨S1024x512, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v9 : Index := Scalar.indexCast v6
  let c0_1 : Index := 0#32
  ![v9.toNat, 0]
def k0_off3 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v11 : Index := Scalar.indexCast v6
  let c0_2 : Index := 0#32
  ![v11.toNat, 0]
def k0_cond2 (i : grid0.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_28 : BitVec 32 := 0#32
  let v81 : BitVec 1 := Scalar.cmpi .ne v80 c0_i32_28
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1024x256 : 0 < S1024x256.numel
  h_S512x256 : 0 < S512x256.numel
  h_S512x100 : 0 < S512x100.numel
  inb_S1024x100_S1024x100_0_0 : ∀ a, (![0, 0] : Fin 2 → Nat) a + S1024x100.size a ≤ S1024x100.size a
  h_S1024x100 : 0 < S1024x100.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  reduces_S512x256_S512 : S512x256.Reduces [1] S512
  shapeCasts_S512_S512x1 : S512.ShapeCasts S512x1
  broadcasts_S512x1_S512x256 : S512x1.Broadcasts S512x256
  reduces_S1024x100_S1024 : S1024x100.Reduces [1] S1024
  broadcasts_S1024x1_S1024x100 : S1024x1.Broadcasts S1024x100
  reduces_S512x100_S512 : S512x100.Reduces [1] S512
  broadcasts_S512x1_S512x100 : S512x1.Broadcasts S512x100
  transposes_S512x256_p1_0_S256x512 : S512x256.Transposes [1, 0] S256x512
  transposes_S512x100_p1_0_S100x512 : S512x100.Transposes [1, 0] S100x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  reduces_S1024x1_S1 : S1024x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  shapeCasts_S4096x4096_S16777216 : S4096x4096.ShapeCasts S16777216
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S1024x256_S256x512_S1024x512_1_0_0_1_n_n_wf : DotDims.WF S1024x256 S256x512 S1024x512 [1] [0] [0] [1] [] []
  dot_S1024x100_S100x512_S1024x512_1_0_0_1_n_n_wf : DotDims.WF S1024x100 S100x512 S1024x512 [1] [0] [0] [1] [] []
  hrank0 : 0 < grid0.rank
  k0_mult1_dvd : ∀ i : grid0.Coords, 1024 ∣ (k0_mult1 i).toNat
  k0_mult2_dvd : ∀ i : grid0.Coords, 512 ∣ (k0_mult2 i).toNat
  k0_off1_inb : ∀ i : grid0.Coords, ∀ a, (k0_off1 i) a + S1024x256.size a ≤ S4096x256.size a
  k0_off2_inb : ∀ i : grid0.Coords, ∀ a, (k0_off2 i) a + S512x256.size a ≤ S4096x256.size a
  k0_off3_inb : ∀ i : grid0.Coords, ∀ a, (k0_off3 i) a + S512x100.size a ≤ S4096x100.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S4096x100.size a
  hwx0_1 : ∀ i : grid0.Coords, EltTy.bits .f32 = 32 ∨ (Rect.block (s := S4096x100) S4096x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S4096x100.size a
  hwx0_2 : ∀ i : grid0.Coords, EltTy.bits .f32 = 32 ∨ (Rect.block (s := S4096x100) S1024x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x100_S100x512_S1024x512_1_0_0_1_n_n : DotDims S1024x100 S100x512 S1024x512 where
  lhsContracting := [1]
  rhsContracting := [0]
  lhsNonContracting := [0]
  rhsNonContracting := [1]
  lhsBatch := []
  rhsBatch := []
  wf := dot_S1024x100_S100x512_S1024x512_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x100 : Shape := ⟨2, ![4096, 100]⟩
abbrev S4096 : Shape := ⟨1, ![4096]⟩
abbrev S_ : Shape := ⟨0, ![]⟩
abbrev S4096x1 : Shape := ⟨2, ![4096, 1]⟩
abbrev S256x4096 : Shape := ⟨2, ![256, 4096]⟩
abbrev S4096x4096 : Shape := ⟨2, ![4096, 4096]⟩
abbrev S16777216 : Shape := ⟨1, ![16777216]⟩
abbrev S100x4096 : Shape := ⟨2, ![100, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x100, .f32⟩
  | .hbm, ⟨2, _⟩ => ⟨S4096x100, .f32⟩
  | .hbm, ⟨3, _⟩ => ⟨S4096, .i32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x100, .f32⟩
  | .hbm, ⟨11, _⟩ => ⟨S4096x100, .f32⟩
  | .hbm, ⟨12, _⟩ => ⟨S4096x100, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x100, .f32⟩
  | .hbm, ⟨17, _⟩ => ⟨S4096x100, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x100, .f32⟩
  | .hbm, ⟨25, _⟩ => ⟨S4096x100, .f32⟩
  | .hbm, ⟨26, _⟩ => ⟨S4096x100, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x100, .f32⟩
  | .hbm, ⟨31, _⟩ => ⟨S4096x100, .f32⟩
  | .hbm, ⟨32, _⟩ => ⟨S4096x256, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x256, .f32⟩
  | .hbm, ⟨42, _⟩ => ⟨S4096x256, .f32⟩
  | .hbm, ⟨43, _⟩ => ⟨S256x4096, .f32⟩
  | .hbm, ⟨44, _⟩ => ⟨S4096x4096, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .i1⟩
  | .hbm, ⟨49, _⟩ => ⟨S_, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S100x4096, .f32⟩
  | .hbm, ⟨56, _⟩ => ⟨S4096x4096, .f32⟩
  | .hbm, ⟨57, _⟩ => ⟨S16777216, .f32⟩
  | .hbm, ⟨58, _⟩ => ⟨S16777216, .f32⟩
  | .hbm, ⟨59, _⟩ => ⟨S_, .f32⟩
  | .hbm, ⟨60, _⟩ => ⟨S16777216, .f32⟩
  | .hbm, ⟨61, _⟩ => ⟨S16777216, .i1⟩
  | .hbm, ⟨62, _⟩ => ⟨S16777216, .f32⟩
  | .hbm, ⟨63, _⟩ => ⟨S16777216, .f32⟩
  | .hbm, ⟨64, _⟩ => ⟨S_, .f32⟩
  | .hbm, ⟨65, _⟩ => ⟨S16777216, .f32⟩
  | .hbm, ⟨66, _⟩ => ⟨S16777216, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S16777216, .f32⟩
  | .hbm, ⟨71, _⟩ => ⟨S16777216, .i1⟩
  | .hbm, ⟨72, _⟩ => ⟨S16777216, .f32⟩
  | .hbm, ⟨73, _⟩ => ⟨S_, .f32⟩
  | .hbm, ⟨74, _⟩ => ⟨S_, .f32⟩
  | .hbm, ⟨75, _⟩ => ⟨S16777216, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]

class Facts₀ : Prop where
  reducesTo_S4096x100_S4096_d1 : S4096x100.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  reducesTo_S4096x256_S4096_d1 : S4096x256.ReducesTo [1] S4096
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  shapeCasts_S4096x4096_S16777216 : S4096x4096.ShapeCasts S16777216
  bcast_S_S16777216 : S_.BroadcastsInDim S16777216 (![] : Fin 0 → Fin S16777216.rank)
  transposes_S4096x100_S100x4096_1_0 : S4096x100.Transposes [1, 0] S100x4096
  reducesTo_S16777216_S_d0 : S16777216.ReducesTo [0] S_
  dot_S4096x256_S256x4096_S4096x4096_1_0_0_1_n_n_wf : DotDims.WF S4096x256 S256x4096 S4096x4096 [1] [0] [0] [1] [] []
  dot_S4096x100_S100x4096_S4096x4096_1_0_0_1_n_n_wf : DotDims.WF S4096x100 S100x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x100_S100x4096_S4096x4096_1_0_0_1_n_n : DotDims S4096x100 S100x4096 S4096x4096 where
  lhsContracting := [1]
  rhsContracting := [0]
  lhsNonContracting := [0]
  rhsNonContracting := [1]
  lhsBatch := []
  rhsBatch := []
  wf := dot_S4096x100_S100x4096_S4096x4096_1_0_0_1_n_n_wf

class Facts : Prop extends Facts₀ where

variable [Facts]
-- ==== Proof.KPieces.lean ====
/-
  What the body leaves behind, case by case. At every grid point the label tile is the labels of the two loaded blocks
  of unit-length rows. The accumulator is reset to zero at the first column tile of a row of tiles and then holds what
  it held plus the tile's total; at the last column tile its entry is also copied over the 1 × 8 × 128 block of partial
  sums. The loads are unit-stride row ranges of the resident arrays.
-/
import proofs.«131518_j87393994539652_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 feature rows of the row tile. -/
def featI (i : grid0.Coords) (x0 : Vec F S4096x256 .f32) : Vec F S1024x256 .f32 :=
  View.ld x0 (Rect.unit (s := S4096x256) (k0_off1 i) S1024x256.size (k0_off1_inb i))

/-- The 512 feature rows of the column tile. -/
def featJ (i : grid0.Coords) (x0 : Vec F S4096x256 .f32) : Vec F S512x256 .f32 :=
  View.ld x0 (Rect.unit (s := S4096x256) (k0_off2 i) S512x256.size (k0_off2_inb i))

/-- The 512 logit rows (first logit array) of the column tile. -/
def logitJ (i : grid0.Coords) (x1 : Vec F S4096x100 .f32) : Vec F S512x100 .f32 :=
  View.ld x1 (Rect.unit (s := S4096x100) (k0_off3 i) S512x100.size (k0_off3_inb i))

/-- The label tile the body stores. -/
def labels (i : grid0.Coords) (x0 : Vec F S4096x256 .f32) : FVec F S1024x512 .f32 :=
  k0_pay7 (k0_pay3 (featI i x0)) (k0_pay4 (featJ i x0))

/-- The accumulator after the body, from what it held before. -/
def accum (i : grid0.Coords) (x0 : Vec F S4096x256 .f32) (x1 : Vec F S4096x100 .f32) (x2 : Vec F S1024x100 .f32) (acc : Vec F S1x1 .f32) : FVec F S1x1 .f32 :=
  k0_pay8 (logitJ i x1) (k0_pay3 (featI i x0)) (k0_pay4 (featJ i x0)) (k0_pay5 x2) acc

theorem out3_A (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i) (x0 : Vec F S4096x256 .f32) (x1 : Vec F S4096x100 .f32) (x2 : Vec F S1024x100 .f32) :
    out0_A_3 c i arg2 harg2 arg3 harg3 arg4 harg4 arg5 harg5 arg6 harg6 arg7 harg7 hc0 hc1 x0 x1 x2 = labels i x0 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz2]
  simp only [View.readAt_eq_ld, harg2.read_unread]
  rfl

theorem out3_B (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i) (x0 : Vec F S4096x256 .f32) (x1 : Vec F S4096x100 .f32) (x2 : Vec F S1024x100 .f32) (xs0 : Vec F S1x1 .f32) :
    out0_B_3 c i arg2 harg2 arg3 harg3 arg4 harg4 arg5 harg5 arg6 harg6 arg7 harg7 hc0 hc1 x0 x1 x2 xs0 = labels i x0 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread]
  rfl

theorem out3_C (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 : Vec F S4096x256 .f32) (x1 : Vec F S4096x100 .f32) (x2 : Vec F S1024x100 .f32) (xs0 : Vec F S1x1 .f32) :
    out0_C_3 c i arg2 harg2 arg3 harg3 arg4 harg4 arg5 harg5 arg6 harg6 arg7 harg7 hc0 hc1 x0 x1 x2 xs0 = labels i x0 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread]
  rfl

theorem acc_A (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i) (x0 : Vec F S4096x256 .f32) (x1 : Vec F S4096x100 .f32) (x2 : Vec F S1024x100 .f32) :
    sout0_A_0 c i arg2 harg2 arg3 harg3 arg4 harg4 arg5 harg5 arg6 harg6 arg7 harg7 hc0 hc1 x0 x1 x2 = accum i x0 x1 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, View.ld_unit_zero (S := S1024x100) hz2]
  rfl

theorem acc_B (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i) (x0 : Vec F S4096x256 .f32) (x1 : Vec F S4096x100 .f32) (x2 : Vec F S1024x100 .f32) (xs0 : Vec F S1x1 .f32) :
    sout0_B_0 c i arg2 harg2 arg3 harg3 arg4 harg4 arg5 harg5 arg6 harg6 arg7 harg7 hc0 hc1 x0 x1 x2 xs0 = accum i x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, harg7.read_unread,
    View.ld_unit_zero (S := S1024x100) hz2, View.ld_unit_zero (S := S1x1) hz2]
  rfl

theorem acc_C (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 : Vec F S4096x256 .f32) (x1 : Vec F S4096x100 .f32) (x2 : Vec F S1024x100 .f32) (xs0 : Vec F S1x1 .f32) :
    sout0_C_0 c i arg2 harg2 arg3 harg3 arg4 harg4 arg5 harg5 arg6 harg6 arg7 harg7 hc0 hc1 x0 x1 x2 xs0 = accum i x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, harg7.read_unread,
    View.ld_unit_zero (S := S1024x100) hz2, View.ld_unit_zero (S := S1x1) hz2]
  rfl

theorem out4_C (c : Dev nD) (i : grid0.Coords) (arg2 : Memref sig .tc .vmem S4096x256 .f32) (harg2 : arg2.IsWhole) (arg3 : Memref sig .tc .vmem S4096x100 .f32) (harg3 : arg3.IsWhole) (arg4 : Memref sig .tc .vmem S1024x100 .f32) (harg4 : arg4.IsWhole) (arg5 : Memref sig .tc .vmem S1024x512 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 : Vec F S4096x256 .f32) (x1 : Vec F S4096x100 .f32) (x2 : Vec F S1024x100 .f32) (xs0 : Vec F S1x1 .f32) :
    out0_C_4 c i arg2 harg2 arg3 harg3 arg4 harg4 arg5 harg5 arg6 harg6 arg7 harg7 hc0 hc1 x0 x1 x2 xs0 = k0_pay1 (accum i x0 x1 x2 xs0) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg7.read_unread,
    View.ld_unit_zero (S := S1024x100) hz2, View.ld_unit_zero (S := S1x1) hz2]
  rfl

end Cert.KernelIdeal.Pieces

end
-- ==== Proof.Spec.lean ====
/-
  What both programs compute, one row at a time, on the extended reals.

  A feature row x (256 entries) is scaled to unit length, x / max(√(Σ x²), tiny); a logit row u (100 entries) is
  turned into probabilities, exp(u − top u) / Σ exp(u − top u). For a pair of samples (a, b) the two rows of
  features give a cosine, Σₖ x̂ₖ ŷₖ, and the two rows of probabilities an agreement, Σ_c p_c q_c. The pair is
  called near when the cosine exceeds the threshold; its label is +1 when near and −1 otherwise, and its cost is
  −log(agreement + ε) when near and −log(1 − agreement + ε) otherwise. The loss is the mean of the costs over all
  4096 · 4096 pairs.
-/
import Idealize.ShloMosaic.PureOps.Ideal
import Idealize.ShloMosaic.PureOps.Ideal.Laws

noncomputable section

namespace Cert.ClusterSpec

open Idealize.ShloMosaic

/-- A feature row scaled to unit length (the length clamped below by a tiny positive number). -/
def unitRow (x : Fin 256 → EReal) (k : Fin 256) : EReal :=
  Ideal.div (x k) (max (Ideal.sqrt (∑ q : Fin 256, x q * x q)) (Ideal.ofBits .f32 0x2B8CBCCC#32))

/-- The largest entry of a logit row (the maximum taken from −∞). -/
def rowTop (x : Fin 100 → EReal) : EReal :=
  (Finset.univ : Finset (Fin 100)).fold max (Ideal.ofBits .f32 0xFF800000#32) x

/-- A logit row turned into probabilities. -/
def softRow (x : Fin 100 → EReal) (c : Fin 100) : EReal :=
  Ideal.div (Ideal.exp (x c - rowTop x)) (∑ q : Fin 100, Ideal.exp (x q - rowTop x))

/-- The cosine of two feature rows. -/
def cosine (x y : Fin 256 → EReal) : EReal := ∑ k : Fin 256, unitRow x k * unitRow y k

/-- The agreement of two logit rows: the inner product of their probabilities. -/
def agree (u w : Fin 100 → EReal) : EReal := ∑ c : Fin 100, softRow u c * softRow w c

/-- Whether two feature rows are near: their cosine exceeds the threshold. -/
def near (x y : Fin 256 → EReal) : BitVec 1 := Ideal.cmp .ogt (cosine x y) (Ideal.ofBits .f32 0x3F733333#32)

/-- The pair's label: +1 when near, −1 otherwise. -/
def label (x y : Fin 256 → EReal) : EReal :=
  Scalar.select (near x y) (Ideal.ofBits .f32 0x3F800000#32) (Ideal.ofBits .f32 0xBF800000#32)

/-- The pair's cost: −log(agreement + ε) when near, −log(1 − agreement + ε) otherwise. -/
def cost (x y : Fin 256 → EReal) (u w : Fin 100 → EReal) : EReal :=
  -Ideal.log (Scalar.select (near x y) (agree u w) (Ideal.ofBits .f32 0x3F800000#32 - agree u w)
    + Ideal.ofBits .f32 0x33D6BF95#32)

/-! ## The literals that have to be read as numbers -/

theorem ofBits_one : Ideal.ofBits .f32 0x3F800000#32 = 1 := by
  simp [Ideal.ofBits, Ideal.ieee, -EReal.coe_mul]; norm_num

theorem ofBits_negOne : Ideal.ofBits .f32 0xBF800000#32 = -1 := by
  simp [Ideal.ofBits, Ideal.ieee, -EReal.coe_mul]; norm_num

theorem ofBits_two24 : Ideal.ofBits .f32 0x4B800000#32 = ((16777216 : ℝ) : EReal) := by
  simp [Ideal.ofBits, Ideal.ieee, -EReal.coe_mul]; norm_num

end Cert.ClusterSpec

end
-- ==== Proof.LibColumnAndUnitAxis.lean ====
import Idealize.ShloMosaic.Lib.ValueIdx
import Idealize.ShloMosaic.Lib.Pipeline.Value

/-!
Four layout operations read at an index given by coordinates.

A column `[a, 1]` broadcast to `[a, b]` reads, at `(p, c)`, the column's entry `(p, 0)`. A rank-3 array with a
middle axis of extent one, `[a, 1, b]`, seen as the matrix `[a, b]` reads, at `(p, c)`, the entry `(p, 0, c)`; and the
matrix seen as `[a, 1, b]` reads, at `(p, 0, c)`, the entry `(p, c)`: a reshape keeps the row-major position, and the
unit axis contributes nothing to it. A vector `[a]` seen as the column `[a, 1]` reads, at `(p, 0)`, its entry `p`.
-/

noncomputable section

namespace Cert.Proof.LibColumnAndUnitAxis

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array seen as the matrix `[a, b]` reads, at `(p, c)`, the entry `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, b]` matrix seen as `[a, 1, b]` reads, at `(p, 0, c)`, the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) :=
  shapeCast_apply x h _ _ (by
    rw [Shape.rowMajor_val_three, Shape.rowMajor_val_two]
    show p.val * b + c.val = (p.val * 1 + 0) * b + c.val
    rw [Nat.mul_one, Nat.add_zero])

/-- An `[a]` vector seen as the column `[a, 1]` reads, at `(p, u)`, the entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Proof.LibColumnAndUnitAxis

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.LibHostReads.lean ====
/-
  Two more host operations on the extended reals, read at an entry, at arbitrary sizes.

  The host's division is, entry by entry, the division of the extended reals.  The host's sum of an m × q array along
  its rows, from an initial value, has at row e the initial value plus the sum of the row's q entries.
-/
import Idealize.ShloMosaic.Lib.ValueIdx
import Idealize.ShloMosaic.PureOps.Ideal.Laws

noncomputable section

open scoped BigOperators

namespace HostReads

open Idealize.ShloMosaic Idealize.ShloMosaic.ValueIdx

/-- The host's division at an entry. -/
theorem hostDivf_apply {s : Shape} (x y : FVec Ideal s .f32) (i : s.Idx) :
    Host.divf (F := Ideal) (φ := .f32) x y i = Ideal.div (x i) (y i) := rfl

/-- The host's sum along the rows at row e: the initial value plus the sum of the row's entries. -/
theorem hostRowSum_apply {m q : Nat} (h' : (⟨2, ![m, q]⟩ : Shape).ReducesTo [1] ⟨1, ![m]⟩)
    (h : (⟨2, ![m, q]⟩ : Shape).Reduces [1] ⟨1, ![m]⟩) (hu : 0 < (⟨0, ![]⟩ : Shape).numel)
    (X : (⟨2, ![m, q]⟩ : Shape).Idx → EReal) (z : (⟨0, ![]⟩ : Shape).Idx → EReal) (e : Fin m) :
    Host.reduceAdd (F := Ideal) (φ := .f32) X z h' hu (ix1 e) = z (Shape.Idx.first hu) + ∑ k : Fin q, X (ix2 e k) := by
  simp only [Host.reduceAdd, Ideal.hostReduceAdd_def]
  rw [Ideal.hostReduceAdd_single h' h]
  refine congrArg (_ + ·) ?_
  show ∑ k : Fin q, X (h.lift (ix1 e) k) = ∑ k : Fin q, X (ix2 e k)
  refine Finset.sum_congr rfl fun k _ => congrArg X (funext fun a => Fin.ext ?_)
  match a with
  | ⟨0, _⟩ => rfl
  | ⟨1, _⟩ => rfl

end HostReads

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibLaneReads.lean ====
/-
  General reads at an entry, on the extended reals and at arbitrary sizes:
  * a lane sum and a lane maximum of an [a, n] block at row p, as the sum and the maximum (from −∞) of the row's entries;
  * a product against a TRANSPOSED right operand, into the zero accumulator (the vector spelling) and as the array
    spelling's dot-general, at entry (a, b): Σ_c A(a, c) · B(b, c);
  * the array spelling's sum of a whole array into a scalar: the initial value plus the sum of all entries;
  * a sum over the index type of a vector as the sum over its entries' positions;
  * n copies of a real number add up to n times it, also inside the extended reals (which are not a semiring).
-/
import proofs.«131518_j87393994539652_2_alg».proof.Proof.LibPlainMatmul
import Idealize.ShloMosaic.Lib.ValueIdx
import Idealize.ShloMosaic.Lib.Pipeline.Value
import Idealize.ShloMosaic.Lib.KernelVsHost
import Idealize.ShloMosaic.PureOps.Ideal.Laws

noncomputable section

namespace Cert.Proof.LibLaneReads

open Idealize.ShloMosaic Idealize.ShloMosaic.ValueIdx

/-- A lane sum of an [a, n] block at row p is the sum of that row's entries. -/
theorem laneSum_apply {a n : ℕ} (v : FVec Ideal ⟨2, ![a, n]⟩ .f32) (hr : (⟨2, ![a, n]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 hr hφ hacc (ix1 p) = ∑ k : Fin n, v (ix2 p k) := by
  refine (Ideal.multiReduction_add_single v _ hr hφ hacc (ix1 p)).trans ?_
  show ∑ k : Fin n, v (hr.lift (ix1 p) k) = ∑ k : Fin n, v (ix2 p k)
  refine Finset.sum_congr rfl fun k _ => congrArg v (funext fun ax => Fin.ext ?_)
  match ax with
  | ⟨0, _⟩ => rfl
  | ⟨1, _⟩ => rfl

/-- A lane maximum of an [a, n] block at row p is the maximum, from −∞, of that row's entries. -/
theorem laneMax_apply {a n : ℕ} (v : FVec Ideal ⟨2, ![a, n]⟩ .f32) (hr : (⟨2, ![a, n]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 hr hφ hacc (ix1 p)
      = (Finset.univ : Finset (Fin n)).fold max (Ideal.ofBits .f32 0xFF800000#32) (fun k => v (ix2 p k)) := by
  refine (Ideal.multiReduction_maximumf_single v _ hr hφ hacc (ix1 p)).trans ?_
  show (Finset.univ : Finset (Fin n)).fold max (Ideal.ofBits .f32 0xFF800000#32) (v ∘ hr.lift (ix1 p)) = _
  refine congrArg (fun g => (Finset.univ : Finset (Fin n)).fold max (Ideal.ofBits .f32 0xFF800000#32) g) (funext fun k => ?_)
  refine congrArg v (funext fun ax => Fin.ext ?_)
  match ax with
  | ⟨0, _⟩ => rfl
  | ⟨1, _⟩ => rfl

/-- A product against a transposed right operand, into the zero accumulator, at entry (a, b): Σ_c A(a, c) · B(b, c). -/
theorem matmulT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    matmul (F := Ideal) d none A (transpose ⟨2, ![k, n]⟩ [1, 0] B ht) (constant (F := Ideal) ⟨2, ![m, n]⟩ .f32 0x00000000#32) (ix2 a b)
      = ∑ c : Fin k, A (ix2 a c) * B (ix2 b c) := by
  subst hd
  rw [Cert.Proof.LibPlainMatmul.matmul_plain_zero_apply]
  refine Finset.sum_congr rfl fun c _ => congrArg (A (ix2 a c) * ·) ?_
  exact transpose_apply [1, 0] B ht (ix2 c b) (ix2 b c) (fun ax => match ax with
    | ⟨0, _⟩ => rfl
    | ⟨1, _⟩ => rfl)

/-- The same product in the host's spelling. -/
theorem dotT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    Host.dotGeneral (F := Ideal) d none A (transpose ⟨2, ![k, n]⟩ [1, 0] B ht) (ix2 a b)
      = ∑ c : Fin k, A (ix2 a c) * B (ix2 b c) := by
  rw [← matmul_zero_eq_dotGeneral]
  exact matmulT_apply A B ht d hd a b

/-- The array spelling's sum of a whole array into a scalar: the initial value plus the sum of all entries. -/
theorem hostTotal_apply {s : Shape} {axes : List (Fin s.rank)} (h' : s.ReducesTo axes ⟨0, ![]⟩)
    (hu : 0 < (⟨0, ![]⟩ : Shape).numel) (X : s.Idx → EReal) (z : (⟨0, ![]⟩ : Shape).Idx → EReal) (j : (⟨0, ![]⟩ : Shape).Idx) :
    Host.reduceAdd (F := Ideal) (φ := .f32) X z h' hu j = z (Shape.Idx.first hu) + ∑ i : s.Idx, X i := by
  simp only [Host.reduceAdd, Ideal.hostReduceAdd_def]
  exact Ideal.hostReduceAdd_total h' (fun b => b.elim0) X _ j

/-- A sum over the indices of a vector is the sum over its entries' positions. -/
theorem sum_idx1 {M : Type*} [AddCommMonoid M] {n : ℕ} (f : (⟨1, ![n]⟩ : Shape).Idx → M) :
    ∑ i, f i = ∑ k : Fin n, f (ix1 k) :=
  Fintype.sum_equiv ⟨fun i => (i 0 : Fin n), ix1, fun i => (eq_ix1 i).symm, fun _ => rfl⟩ _ _ (fun i => congrArg f (eq_ix1 i))

/-- n copies of a real add up to n times it, also inside the extended reals. -/
theorem nsmul_coe (n : ℕ) (r : ℝ) : n • (r : EReal) = ((n * r : ℝ) : EReal) := by
  induction n with
  | zero => simp
  | succ k ih =>
    rw [succ_nsmul, ih, ← EReal.coe_add]
    refine congrArg (fun z : ℝ => (z : EReal)) ?_
    push_cast; ring

end Cert.Proof.LibLaneReads

end
-- ==== Proof.RowReads.lean ====
/-
  Rows, read at an entry. A block of feature rows scaled to unit length, and a block of logit rows turned into
  probabilities, each in the two spellings that occur — lane reductions, a vector seen as a column, a column widened
  (the vector form), and a row reduction followed by the two broadcasts (the array form) — hold at entry (p, q) the
  row function of row p at q, whatever the number of rows.
-/
import proofs.«131518_j87393994539652_2_alg».proof.Proof.Spec
import proofs.«131518_j87393994539652_2_alg».proof.Proof.LibColumnAndUnitAxis
import proofs.«131518_j87393994539652_2_alg».proof.Proof.LibBroadcasts
import proofs.«131518_j87393994539652_2_alg».proof.Proof.LibHostReads
import proofs.«131518_j87393994539652_2_alg».proof.Proof.LibLaneReads
import Idealize.ShloMosaic.Lib.ValueIdx
import Idealize.ShloMosaic.Lib.KernelVsHost
import Idealize.ShloMosaic.PureOps.Ideal.Laws

noncomputable section

namespace Cert.RowReads

open Idealize.ShloMosaic Idealize.ShloMosaic.ValueIdx Cert.ClusterSpec Cert.Proof.LibLaneReads

/-- The vector form of unit-length rows, at an entry. -/
theorem vecUnit_apply {a : ℕ} (v : FVec Ideal ⟨2, ![a, 256]⟩ .f32)
    (hr : (⟨2, ![a, 256]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) (hb : (⟨2, ![a, 1]⟩ : Shape).Broadcasts ⟨2, ![a, 256]⟩)
    (hlt : FTy.bf16.bits < FTy.f32.bits) (p : Fin a) (q : Fin 256) :
    (truncf .bf16 (divf v (broadcastTo ⟨2, ![a, 256]⟩ (maximumf (sqrt (shapeCast ⟨2, ![a, 1]⟩
        (multiReduction .add [1] ⟨1, ![a]⟩ (mulf v v) 0x00000000#32 hr hφ hacc) hs))
        (broadcast ⟨2, ![a, 1]⟩ (Scalar.ofBits (F := Ideal) .f32 0x2B8CBCCC#32))) hb)) hlt : FVec Ideal ⟨2, ![a, 256]⟩ .bf16) (ix2 p q)
      = unitRow (fun k => v (ix2 p k)) q := by
  show Ideal.div (v (ix2 p q)) (broadcastTo ⟨2, ![a, 256]⟩ _ hb (ix2 p q)) = _
  rw [Cert.Proof.LibColumnAndUnitAxis.broadcastTo_a1_ab_apply]
  show Ideal.div (v (ix2 p q)) (max (Ideal.sqrt (shapeCast ⟨2, ![a, 1]⟩ _ hs (ix2 p (0 : Fin 1)))) (Ideal.ofBits .f32 0x2B8CBCCC#32)) = _
  rw [Cert.Proof.LibColumnAndUnitAxis.shapeCast_a_a1_apply, laneSum_apply]
  rfl

/-- The vector form of exp(u − top u) over a block of logit rows. -/
def vecExp {a : ℕ} (v : FVec Ideal ⟨2, ![a, 100]⟩ .f32)
    (hr : (⟨2, ![a, 100]⟩ : Shape).Reduces [1] ⟨1, ![a]⟩) (hφ : FKind.Formats .f32)
    (haccM : (0xFF800000#32 : BitVec 32) = FKind.maximumf.neutral .f32 hφ)
    (hs : (⟨1, ![a]⟩ : Shape).ShapeCasts ⟨2, ![a, 1]⟩) (hb : (⟨2, ![a, 1]⟩ : Shape).Broadcasts ⟨2, ![a, 100]⟩) :
    FVec Ideal ⟨2, ![a, 100]⟩ .f32 :=
  exp (subf v (broadcastTo ⟨2, ![a, 100]⟩ (shapeCast ⟨2, ![a, 1]⟩
    (multiReduction .maximumf [1] ⟨1, ![a]⟩ v 0xFF800000#32 hr hφ haccM) hs) hb))

theorem vecExp_apply {a : ℕ} (v : FVec Ideal ⟨2, ![a, 100]⟩ .f32)
    (hr : (⟨2, ![a, 100]⟩ : Shape).Reduces [1] ⟨1, ![a]⟩) (hφ : FKind.Formats .f32)
    (haccM : (0xFF800000#32 : BitVec 32) = FKind.maximumf.neutral .f32 hφ)
    (hs : (⟨1, ![a]⟩ : Shape).ShapeCasts ⟨2, ![a, 1]⟩) (hb : (⟨2, ![a, 1]⟩ : Shape).Broadcasts ⟨2, ![a, 100]⟩)
    (p : Fin a) (c : Fin 100) :
    vecExp v hr hφ haccM hs hb (ix2 p c) = Ideal.exp (v (ix2 p c) - rowTop (fun k => v (ix2 p k))) := by
  show Ideal.exp (v (ix2 p c) - broadcastTo ⟨2, ![a, 100]⟩ _ hb (ix2 p c)) = _
  rw [Cert.Proof.LibColumnAndUnitAxis.broadcastTo_a1_ab_apply, Cert.Proof.LibColumnAndUnitAxis.shapeCast_a_a1_apply, laneMax_apply]
  rfl

/-- The vector form of row probabilities, at an entry. -/
theorem vecSoft_apply {a : ℕ} (v : FVec Ideal ⟨2, ![a, 100]⟩ .f32)
    (hr : (⟨2, ![a, 100]⟩ : Shape).Reduces [1] ⟨1, ![a]⟩) (hφ : FKind.Formats .f32)
    (hacc : (0x00000000#32 : BitVec 32) = FKind.add.neutral .f32 hφ)
    (haccM : (0xFF800000#32 : BitVec 32) = FKind.maximumf.neutral .f32 hφ)
    (hs : (⟨1, ![a]⟩ : Shape).ShapeCasts ⟨2, ![a, 1]⟩) (hb : (⟨2, ![a, 1]⟩ : Shape).Broadcasts ⟨2, ![a, 100]⟩)
    (hlt : FTy.bf16.bits < FTy.f32.bits) (p : Fin a) (c : Fin 100) :
    (truncf .bf16 (divf (vecExp v hr hφ haccM hs hb) (broadcastTo ⟨2, ![a, 100]⟩ (shapeCast ⟨2, ![a, 1]⟩
        (multiReduction .add [1] ⟨1, ![a]⟩ (vecExp v hr hφ haccM hs hb) 0x00000000#32 hr hφ hacc) hs) hb)) hlt
        : FVec Ideal ⟨2, ![a, 100]⟩ .bf16) (ix2 p c)
      = softRow (fun k => v (ix2 p k)) c := by
  show Ideal.div (vecExp v hr hφ haccM hs hb (ix2 p c)) (broadcastTo ⟨2, ![a, 100]⟩ _ hb (ix2 p c)) = _
  rw [Cert.Proof.LibColumnAndUnitAxis.broadcastTo_a1_ab_apply, Cert.Proof.LibColumnAndUnitAxis.shapeCast_a_a1_apply, laneSum_apply,
    vecExp_apply]
  simp only [vecExp_apply]
  rfl

/-- The array form of unit-length rows, at an entry. -/
theorem arrUnit_apply {a : ℕ} (x : FVec Ideal ⟨2, ![a, 256]⟩ .f32)
    (h' : (⟨2, ![a, 256]⟩ : Shape).ReducesTo [1] ⟨1, ![a]⟩) (hr : (⟨2, ![a, 256]⟩ : Shape).Reduces [1] ⟨1, ![a]⟩)
    (hu : 0 < (⟨0, ![]⟩ : Shape).numel)
    (hc : (⟨1, ![a]⟩ : Shape).BroadcastsInDim ⟨2, ![a, 1]⟩ (![0] : Fin 1 → Fin 2))
    (hw : (⟨2, ![a, 1]⟩ : Shape).BroadcastsInDim ⟨2, ![a, 256]⟩ (![0, 1] : Fin 2 → Fin 2))
    (h0 : (⟨0, ![]⟩ : Shape).BroadcastsInDim ⟨2, ![a, 1]⟩ (![] : Fin 0 → Fin 2)) (p : Fin a) (q : Fin 256) :
    Host.divf (F := Ideal) x (broadcastInDim ⟨2, ![a, 256]⟩ ![0, 1] hw
        (maximumf (broadcastInDim ⟨2, ![a, 1]⟩ ![] h0 (id (constant (F := Ideal) ⟨0, ![]⟩ .f32 0x2B8CBCCC#32)))
          (Host.sqrt (F := Ideal) (broadcastInDim ⟨2, ![a, 1]⟩ ![0] hc
            (Host.reduceAdd (F := Ideal) (mulf x x) (constant (F := Ideal) ⟨0, ![]⟩ .f32 0x00000000#32) h' hu))))) (ix2 p q)
      = unitRow (fun k => x (ix2 p k)) q := by
  show Ideal.div (x (ix2 p q)) (broadcastInDim (s := ⟨2, ![a, 1]⟩) ⟨2, ![a, 256]⟩ (![0, 1] : Fin 2 → Fin 2) hw _ (ix2 p q)) = _
  rw [Broadcasts.widen_apply]
  show Ideal.div (x (ix2 p q)) (max (broadcastInDim (s := ⟨0, ![]⟩) ⟨2, ![a, 1]⟩ (![] : Fin 0 → Fin 2) h0 _ (ix2 p (0 : Fin 1)))
    (Ideal.sqrt (broadcastInDim (s := ⟨1, ![a]⟩) ⟨2, ![a, 1]⟩ (![0] : Fin 1 → Fin 2) hc _ (ix2 p (0 : Fin 1))))) = _
  rw [Broadcasts.scalar_apply, Broadcasts.column_apply, HostReads.hostRowSum_apply h' hr hu]
  show Ideal.div (x (ix2 p q)) (max (Ideal.ofBits .f32 0x2B8CBCCC#32)
    (Ideal.sqrt (Ideal.ofBits .f32 0x00000000#32 + ∑ k : Fin 256, x (ix2 p k) * x (ix2 p k)))) = _
  rw [Ideal.ofBits_zero_f32, zero_add, max_comm]
  rfl

/-- The array form of exp(u − top u) over logit rows (the row maximum taken from −∞, and once more against −∞). -/
def arrExp {a : ℕ} (x : FVec Ideal ⟨2, ![a, 100]⟩ .f32)
    (h' : (⟨2, ![a, 100]⟩ : Shape).ReducesTo [1] ⟨1, ![a]⟩) (hu : 0 < (⟨0, ![]⟩ : Shape).numel)
    (hc : (⟨1, ![a]⟩ : Shape).BroadcastsInDim ⟨2, ![a, 1]⟩ (![0] : Fin 1 → Fin 2))
    (hw : (⟨2, ![a, 1]⟩ : Shape).BroadcastsInDim ⟨2, ![a, 100]⟩ (![0, 1] : Fin 2 → Fin 2))
    (h0 : (⟨0, ![]⟩ : Shape).BroadcastsInDim ⟨1, ![a]⟩ (![] : Fin 0 → Fin 1)) : FVec Ideal ⟨2, ![a, 100]⟩ .f32 :=
  Host.exp (F := Ideal) (subf x (broadcastInDim ⟨2, ![a, 100]⟩ ![0, 1] hw (broadcastInDim ⟨2, ![a, 1]⟩ ![0] hc
    (maximumf (broadcastInDim ⟨1, ![a]⟩ ![] h0 (constant (F := Ideal) ⟨0, ![]⟩ .f32 0xFF800000#32))
      (Host.reduce (FloatOps.maximumf (F := Ideal) (φ := .f32)) x (constant (F := Ideal) ⟨0, ![]⟩ .f32 0xFF800000#32) h' hu)))))

theorem arrExp_apply {a : ℕ} (x : FVec Ideal ⟨2, ![a, 100]⟩ .f32)
    (h' : (⟨2, ![a, 100]⟩ : Shape).ReducesTo [1] ⟨1, ![a]⟩) (hr : (⟨2, ![a, 100]⟩ : Shape).Reduces [1] ⟨1, ![a]⟩)
    (hu : 0 < (⟨0, ![]⟩ : Shape).numel)
    (hc : (⟨1, ![a]⟩ : Shape).BroadcastsInDim ⟨2, ![a, 1]⟩ (![0] : Fin 1 → Fin 2))
    (hw : (⟨2, ![a, 1]⟩ : Shape).BroadcastsInDim ⟨2, ![a, 100]⟩ (![0, 1] : Fin 2 → Fin 2))
    (h0 : (⟨0, ![]⟩ : Shape).BroadcastsInDim ⟨1, ![a]⟩ (![] : Fin 0 → Fin 1)) (p : Fin a) (c : Fin 100) :
    arrExp x h' hu hc hw h0 (ix2 p c) = Ideal.exp (x (ix2 p c) - rowTop (fun k => x (ix2 p k))) := by
  show Ideal.exp (x (ix2 p c) - broadcastInDim (s := ⟨2, ![a, 1]⟩) ⟨2, ![a, 100]⟩ (![0, 1] : Fin 2 → Fin 2) hw _ (ix2 p c)) = _
  rw [Broadcasts.widen_apply, Broadcasts.column_apply]
  show Ideal.exp (x (ix2 p c) - max (broadcastInDim (s := ⟨0, ![]⟩) ⟨1, ![a]⟩ (![] : Fin 0 → Fin 1) h0 _ (ix1 p))
    (Host.reduce (FloatOps.maximumf (F := Ideal) (φ := .f32)) x _ h' hu (ix1 p))) = _
  rw [Broadcasts.scalar_apply, Host.reduce_eq_fold_single _ x _ h' hr hu (ix1 p)]
  have hfold : ∀ (b : EReal) (g : Fin 100 → EReal),
      max b ((Finset.univ : Finset (Fin 100)).fold max b g) = (Finset.univ : Finset (Fin 100)).fold max b g :=
    fun b g => max_eq_right ((Finset.le_fold_max _).mpr (Or.inl le_rfl))
  refine congrArg (fun y => Ideal.exp (x (ix2 p c) - y)) ?_
  refine (hfold (Ideal.ofBits .f32 0xFF800000#32) (fun k => x (hr.lift (ix1 p) k))).trans ?_
  refine congrArg (fun g => (Finset.univ : Finset (Fin 100)).fold max (Ideal.ofBits .f32 0xFF800000#32) g)
    (funext fun k => congrArg x (funext fun ax => Fin.ext ?_))
  match ax with
  | ⟨0, _⟩ => rfl
  | ⟨1, _⟩ => rfl

/-- The array form of row probabilities, at an entry. -/
theorem arrSoft_apply {a : ℕ} (x : FVec Ideal ⟨2, ![a, 100]⟩ .f32)
    (h' : (⟨2, ![a, 100]⟩ : Shape).ReducesTo [1] ⟨1, ![a]⟩) (hr : (⟨2, ![a, 100]⟩ : Shape).Reduces [1] ⟨1, ![a]⟩)
    (hu : 0 < (⟨0, ![]⟩ : Shape).numel)
    (hc : (⟨1, ![a]⟩ : Shape).BroadcastsInDim ⟨2, ![a, 1]⟩ (![0] : Fin 1 → Fin 2))
    (hw : (⟨2, ![a, 1]⟩ : Shape).BroadcastsInDim ⟨2, ![a, 100]⟩ (![0, 1] : Fin 2 → Fin 2))
    (h0 : (⟨0, ![]⟩ : Shape).BroadcastsInDim ⟨1, ![a]⟩ (![] : Fin 0 → Fin 1)) (p : Fin a) (c : Fin 100) :
    Host.divf (F := Ideal) (arrExp x h' hu hc hw h0) (broadcastInDim ⟨2, ![a, 100]⟩ ![0, 1] hw (broadcastInDim ⟨2, ![a, 1]⟩ ![0] hc
        (Host.reduceAdd (F := Ideal) (arrExp x h' hu hc hw h0) (constant (F := Ideal) ⟨0, ![]⟩ .f32 0x00000000#32) h' hu))) (ix2 p c)
      = softRow (fun k => x (ix2 p k)) c := by
  show Ideal.div (arrExp x h' hu hc hw h0 (ix2 p c))
    (broadcastInDim (s := ⟨2, ![a, 1]⟩) ⟨2, ![a, 100]⟩ (![0, 1] : Fin 2 → Fin 2) hw _ (ix2 p c)) = _
  rw [Broadcasts.widen_apply, Broadcasts.column_apply, HostReads.hostRowSum_apply h' hr hu, arrExp_apply x h' hr]
  show Ideal.div _ (Ideal.ofBits .f32 0x00000000#32 + _) = _
  rw [Ideal.ofBits_zero_f32, zero_add]
  simp only [arrExp_apply x h' hr]
  rfl

end Cert.RowReads

end
-- ==== Proof.KPayloads.lean ====
/-
  The body's arithmetic, read at an entry. The rows the body loads are scaled to unit length or turned into
  probabilities block by block; the 1024 × 512 tile of labels holds at (p, q) the label of rows p and q of the two
  feature blocks; and the one-entry accumulator gains the tile's total cost, Σ_p Σ_q cost(p, q), the lane sums and the
  sum down the column being plain sums on the extended reals.
-/
import proofs.«131518_j87393994539652_2_alg».proof.Proof.Gen.KernelIdeal.Skeleton
import proofs.«131518_j87393994539652_2_alg».proof.Proof.RowReads
import Idealize.ShloMosaic.Lib.ValueIdx
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen Cert.ClusterSpec

/-- The 1024 feature rows of the i-side, scaled to unit length. -/
theorem pay3_apply (v8 : Vec Ideal S1024x256 .f32) (p : Fin 1024) (k : Fin 256) :
    k0_pay3 v8 (ix2 p k) = unitRow (fun k' => v8 (ix2 p k')) k :=
  Cert.RowReads.vecUnit_apply (a := 1024) v8 reduces_S1024x256_S1024 (.inl rfl) rfl shapeCasts_S1024_S1024x1
    broadcasts_S1024x1_S1024x256 bitsLt_bf16_f32 p k

/-- The 512 feature rows of the j-side, scaled to unit length. -/
theorem pay4_apply (v10 : Vec Ideal S512x256 .f32) (q : Fin 512) (k : Fin 256) :
    k0_pay4 v10 (ix2 q k) = unitRow (fun k' => v10 (ix2 q k')) k :=
  Cert.RowReads.vecUnit_apply (a := 512) v10 reduces_S512x256_S512 (.inl rfl) rfl shapeCasts_S512_S512x1
    broadcasts_S512x1_S512x256 bitsLt_bf16_f32 q k

/-- The 1024 logit rows of the i-side, as probabilities. -/
theorem pay5_apply (v13 : Vec Ideal S1024x100 .f32) (p : Fin 1024) (c : Fin 100) :
    k0_pay5 v13 (ix2 p c) = softRow (fun k => v13 (ix2 p k)) c :=
  Cert.RowReads.vecSoft_apply (a := 1024) v13 reduces_S1024x100_S1024 (.inl rfl) rfl rfl shapeCasts_S1024_S1024x1
    broadcasts_S1024x1_S1024x100 bitsLt_bf16_f32 p c

/-- Whether the product of the two unit-length blocks exceeds the threshold at (p, q). -/
theorem pay6_apply (v22 : FVec Ideal S1024x256 .bf16) (v31 : FVec Ideal S512x256 .bf16) (p : Fin 1024) (q : Fin 512) :
    k0_pay6 v22 v31 (ix2 p q)
      = Ideal.cmp .ogt (∑ k : Fin 256, v22 (ix2 p k) * v31 (ix2 q k)) (Ideal.ofBits .f32 0x3F733333#32) :=
  congrArg (fun y => Ideal.cmp .ogt y (Ideal.ofBits .f32 0x3F733333#32))
    (Cert.Proof.LibLaneReads.matmulT_apply v22 v31 transposes_S512x256_p1_0_S256x512 dot_S1024x256_S256x512_S1024x512_1_0_0_1_n_n rfl p q)

variable (v22 : FVec Ideal S1024x256 .bf16) (v31 : FVec Ideal S512x256 .bf16)
  (X : Fin 1024 → Fin 256 → EReal) (Y : Fin 512 → Fin 256 → EReal)
  (h22 : ∀ p k, v22 (ix2 p k) = unitRow (X p) k) (h31 : ∀ q k, v31 (ix2 q k) = unitRow (Y q) k)

include h22 h31 in
theorem near_apply (p : Fin 1024) (q : Fin 512) : k0_pay6 v22 v31 (ix2 p q) = near (X p) (Y q) := by
  rw [pay6_apply]
  simp only [h22, h31]
  rfl

include h22 h31 in
/-- The tile of labels at (p, q). -/
theorem pay7_apply (p : Fin 1024) (q : Fin 512) : k0_pay7 v22 v31 (ix2 p q) = label (X p) (Y q) := by
  show Scalar.select (k0_pay6 v22 v31 (ix2 p q)) (Ideal.ofBits .f32 0x3F800000#32) (Ideal.ofBits .f32 0xBF800000#32) = _
  rw [near_apply v22 v31 X Y h22 h31]
  rfl

/-! ## The accumulating payload, in steps -/

/-- The 512 logit rows of the j-side, as probabilities (the vector form). -/
def softJ (v12 : Vec Ideal S512x100 .f32) : FVec Ideal S512x100 .bf16 :=
  truncf .bf16 (divf (Cert.RowReads.vecExp (a := 512) v12 reduces_S512x100_S512 (.inl rfl) rfl shapeCasts_S512_S512x1 broadcasts_S512x1_S512x100)
    (broadcastTo S512x100 (shapeCast S512x1 (multiReduction .add [1] S512
      (Cert.RowReads.vecExp (a := 512) v12 reduces_S512x100_S512 (.inl rfl) rfl shapeCasts_S512_S512x1 broadcasts_S512x1_S512x100)
      0x00000000#32 reduces_S512x100_S512 (.inl rfl) rfl) shapeCasts_S512_S512x1) broadcasts_S512x1_S512x100)) bitsLt_bf16_f32

/-- The tile of agreements. -/
def agreeTile (v12 : Vec Ideal S512x100 .f32) (v41 : FVec Ideal S1024x100 .bf16) : FVec Ideal S1024x512 .f32 :=
  matmul dot_S1024x100_S100x512_S1024x512_1_0_0_1_n_n none v41
    (transpose S100x512 [1, 0] (softJ v12) transposes_S512x100_p1_0_S100x512) (constant (F := Ideal) S1024x512 .f32 0x00000000#32)

/-- The tile of costs. -/
def costTile (v12 : Vec Ideal S512x100 .f32) (v41 : FVec Ideal S1024x100 .bf16) : FVec Ideal S1024x512 .f32 :=
  subf (broadcast S1024x512 (Scalar.ofBits (F := Ideal) .f32 0x00000000#32))
    (log (addf (select (k0_pay6 v22 v31) (agreeTile v12 v41)
        (subf (broadcast S1024x512 (Scalar.ofBits (F := Ideal) .f32 0x3F800000#32)) (agreeTile v12 v41)))
      (broadcast S1024x512 (Scalar.ofBits (F := Ideal) .f32 0x33D6BF95#32))))

/-- A tile's total as a one-entry matrix: lane sums, then the sum down the column. -/
def tileTotal (w : FVec Ideal S1024x512 .f32) : FVec Ideal S1x1 .f32 :=
  shapeCast S1x1 (multiReduction .add [0] S1 (shapeCast S1024x1
      (multiReduction .add [1] S1024 w 0x00000000#32 reduces_S1024x512_S1024 (.inl rfl) rfl) shapeCasts_S1024_S1024x1)
    0x00000000#32 reduces_S1024x1_S1 (.inl rfl) rfl) shapeCasts_S1_S1x1

/-- The accumulating payload is: what the accumulator held plus the total of the tile of costs. -/
theorem pay8_eq (v12 : Vec Ideal S512x100 .f32) (v41 : FVec Ideal S1024x100 .bf16) (v74 : Vec Ideal S1x1 .f32) :
    k0_pay8 v12 v22 v31 v41 v74
      = shapeCast S1x1 (addf v74 (tileTotal (costTile v22 v31 v12 v41))) shapeCasts_S1x1_S1x1 := rfl

/-- The total of a tile, at the one entry. -/
theorem tileTotal_apply (w : FVec Ideal S1024x512 .f32) (y : S1x1.Idx) :
    tileTotal w y = ∑ p : Fin 1024, ∑ q : Fin 512, w (ix2 p q) := by
  obtain rfl : y = ix2 (0 : Fin 1) (0 : Fin 1) := by
    funext ax; apply Fin.ext
    match ax with
    | ⟨0, _⟩ => have h : (y 0).val < 1 := (y 0).isLt; show (y 0).val = 0; omega
    | ⟨1, _⟩ => have h : (y 1).val < 1 := (y 1).isLt; show (y 1).val = 0; omega
  unfold tileTotal
  rw [Cert.Proof.LibColumnAndUnitAxis.shapeCast_a_a1_apply]
  refine (Ideal.multiReduction_add_single _ _ reduces_S1024x1_S1 (.inl rfl) rfl (ix1 (0 : Fin 1))).trans ?_
  show ∑ p : Fin 1024, shapeCast S1024x1 _ shapeCasts_S1024_S1024x1 (reduces_S1024x1_S1.lift (ix1 (0 : Fin 1)) p) = _
  refine Finset.sum_congr rfl fun p _ => ?_
  have e : reduces_S1024x1_S1.lift (ix1 (0 : Fin 1)) p = ix2 p (0 : Fin 1) := by
    funext ax; apply Fin.ext
    match ax with
    | ⟨0, _⟩ => rfl
    | ⟨1, _⟩ => rfl
  rw [e, Cert.Proof.LibColumnAndUnitAxis.shapeCast_a_a1_apply]
  exact Cert.Proof.LibLaneReads.laneSum_apply (a := 1024) (n := 512) w reduces_S1024x512_S1024 (.inl rfl) rfl p

variable (U : Fin 1024 → Fin 100 → EReal)

/-- The tile of agreements at (p, q). -/
theorem agreeTile_apply (v12 : Vec Ideal S512x100 .f32) (v41 : FVec Ideal S1024x100 .bf16)
    (h41 : ∀ p c, v41 (ix2 p c) = softRow (U p) c) (p : Fin 1024) (q : Fin 512) :
    agreeTile v12 v41 (ix2 p q) = agree (U p) (fun c => v12 (ix2 q c)) := by
  unfold agreeTile
  rw [Cert.Proof.LibLaneReads.matmulT_apply v41 (softJ v12) transposes_S512x100_p1_0_S100x512 dot_S1024x100_S100x512_S1024x512_1_0_0_1_n_n rfl p q]
  unfold agree
  refine Finset.sum_congr rfl fun c _ => ?_
  rw [h41]
  refine congrArg (softRow (U p) c * ·) ?_
  exact Cert.RowReads.vecSoft_apply (a := 512) v12 reduces_S512x100_S512 (.inl rfl) rfl rfl shapeCasts_S512_S512x1
    broadcasts_S512x1_S512x100 bitsLt_bf16_f32 q c

include h22 h31 in
/-- The tile of costs at (p, q). -/
theorem costTile_apply (v12 : Vec Ideal S512x100 .f32) (v41 : FVec Ideal S1024x100 .bf16)
    (h41 : ∀ p c, v41 (ix2 p c) = softRow (U p) c) (p : Fin 1024) (q : Fin 512) :
    costTile v22 v31 v12 v41 (ix2 p q) = cost (X p) (Y q) (U p) (fun c => v12 (ix2 q c)) := by
  show Ideal.ofBits .f32 0x00000000#32 - Ideal.log (Scalar.select (k0_pay6 v22 v31 (ix2 p q)) (agreeTile v12 v41 (ix2 p q))
      (Ideal.ofBits .f32 0x3F800000#32 - agreeTile v12 v41 (ix2 p q)) + Ideal.ofBits .f32 0x33D6BF95#32) = _
  rw [near_apply v22 v31 X Y h22 h31, agreeTile_apply U v12 v41 h41, Ideal.ofBits_zero_f32, zero_sub]
  rfl

include h22 h31 in
/-- The accumulator after the body: what it held plus the tile's total cost. -/
theorem pay8_apply (v12 : Vec Ideal S512x100 .f32) (v41 : FVec Ideal S1024x100 .bf16) (v74 : Vec Ideal S1x1 .f32)
    (h41 : ∀ p c, v41 (ix2 p c) = softRow (U p) c) (y : S1x1.Idx) :
    k0_pay8 v12 v22 v31 v41 v74 y
      = v74 y + ∑ p : Fin 1024, ∑ q : Fin 512, cost (X p) (Y q) (U p) (fun c => v12 (ix2 q c)) := by
  rw [pay8_eq, shapeCast_self]
  show v74 y + tileTotal (costTile v22 v31 v12 v41) y = _
  rw [tileTotal_apply]
  refine congrArg (v74 y + ·) (Finset.sum_congr rfl fun p _ => Finset.sum_congr rfl fun q _ => ?_)
  exact costTile_apply v22 v31 X Y h22 h31 U v12 v41 h41 p q

/-- The zero the accumulator is reset to. -/
theorem pay2_apply (y : S1x1.Idx) : k0_pay2 (F := Ideal) y = 0 := by
  show Ideal.ofBits .f32 0x00000000#32 = 0
  exact Ideal.ofBits_zero_f32

/-- The accumulator's one entry, copied to every entry of the 1 × 8 × 128 block. -/
theorem pay1_apply (v82 : Vec Ideal S1x1 .f32) (y : S1x8x128.Idx) : k0_pay1 v82 y = v82 (ix2 (0 : Fin 1) (0 : Fin 1)) := by
  unfold k0_pay1
  show shapeCast S1x8x128 (broadcast S8x128 (extractAt ![0, 0] v82 inpos_S1x1_p0_0)) shapeCasts_S8x128_S1x8x128 y = _
  unfold shapeCast
  show extractAt ![0, 0] v82 inpos_S1x1_p0_0 = _
  unfold extractAt
  refine congrArg v82 (funext fun ax => Fin.ext ?_)
  match ax with
  | ⟨0, _⟩ => rfl
  | ⟨1, _⟩ => rfl

end Cert.KernelIdeal.Payloads

end
-- ==== Proof.LibFinBlocks.lean ====
import Mathlib.Algebra.BigOperators.Fin
import Mathlib.Algebra.BigOperators.Group.Finset.Basic
import Mathlib.Logic.Equiv.Fin.Basic

/-!
A sum over `T · B` consecutive indices taken block by block: the sum over the `T` blocks of the sums over the `B`
indices of each block, index `B · t + r` being entry `r` of block `t`. Stated in any additive commutative monoid,
so it holds on the extended reals (where only commutativity and associativity of the sum are used).
-/

namespace Cert.Proof.LibFinBlocks

variable {M : Type*} [AddCommMonoid M]

/-- Entry `r` of block `t`, as an index below `T · B`. -/
def blockIx {T B : ℕ} (t : Fin T) (r : Fin B) : Fin (T * B) :=
  ⟨B * t.val + r.val, by
    have ht := t.isLt; have hr := r.isLt
    calc B * t.val + r.val < B * t.val + B := by omega
      _ = B * (t.val + 1) := (Nat.mul_succ B t.val).symm
      _ ≤ B * T := Nat.mul_le_mul_left B (Nat.succ_le_of_lt ht)
      _ = T * B := Nat.mul_comm B T⟩

theorem blockIx_val {T B : ℕ} (t : Fin T) (r : Fin B) : (blockIx t r).val = B * t.val + r.val := rfl

/-- A sum over `T · B` indices is the sum over the blocks of the sums inside each block. -/
theorem sum_blocks {T B : ℕ} (g : Fin (T * B) → M) :
    ∑ i, g i = ∑ t : Fin T, ∑ r : Fin B, g (blockIx t r) := by
  rw [← Equiv.sum_comp finProdFinEquiv g, Fintype.sum_prod_type]
  refine Finset.sum_congr rfl fun t _ => Finset.sum_congr rfl fun r _ => congrArg g (Fin.ext ?_)
  show r.val + B * t.val = B * t.val + r.val
  omega

end Cert.Proof.LibFinBlocks
-- ==== Proof.KGrid.lean ====
/-
  The grid, point by point. Point t = 8 i + j works on row tile i (rows 1024 i … 1024 i + 1023) and column tile j
  (rows 512 j … 512 j + 511 of the same arrays): the rows the body loads are those rows of the argument arrays, so the
  label tile holds the labels of those pairs, and the accumulator, reset at j = 0, holds after point t the costs of the
  tiles (i, 0) … (i, j) added up — by induction on the point, the first column tile resetting and every other one adding
  to what the point before left.
-/
import proofs.«131518_j87393994539652_2_alg».proof.Proof.KPieces
import proofs.«131518_j87393994539652_2_alg».proof.Proof.KPayloads
import proofs.«131518_j87393994539652_2_alg».proof.Proof.LibFinBlocks
import Idealize.ShloMosaic.Lib.Pipeline.Value
import Idealize.ShloMosaic.Lib.ValueIdx

noncomputable section

namespace Cert.KernelIdeal.Grid

open Idealize.ShloMosaic Idealize.ShloMosaic.TcCoe Idealize.ShloMosaic.ValueIdx Idealize.SL.Sem
open Cert.KernelIdeal Cert.KernelIdeal.Gen Cert.KernelIdeal.Pieces Cert.KernelIdeal.Payloads Cert.ClusterSpec Cert.Proof.LibFinBlocks

variable (m : (ℓ : Loc nD τ sig) → Buf (Elt Ideal) ℓ) (c : Dev nD)

/-- Row a of the feature array and of the two logit arrays, as the kernel's arguments hold them. -/
abbrev featRow (a : Fin 4096) : Fin 256 → EReal := fun k => (m ((c.tc : Thread nD τ).loc main_arg0) : S4096x256.Idx → EReal) (ix2 a k)
abbrev logit1Row (a : Fin 4096) : Fin 100 → EReal := fun k => (m ((c.tc : Thread nD τ).loc main_arg1) : S4096x100.Idx → EReal) (ix2 a k)
abbrev logit2Row (a : Fin 4096) : Fin 100 → EReal := fun k => (m ((c.tc : Thread nD τ).loc main_arg2) : S4096x100.Idx → EReal) (ix2 a k)

/-- The row tile and the column tile of a grid point. -/
def ti (t : Fin cfg0.N) : Fin 4 := ⟨t.val / 8, by have h : t.val < 32 := lt_of_lt_of_eq t.isLt (show cfg0.N = 32 from N_0); omega⟩
def tj (t : Fin cfg0.N) : Fin 8 := ⟨t.val % 8, Nat.mod_lt _ (by norm_num)⟩

/-- Where the body's three loads start, over the grid. -/
theorem offs : ∀ t : Fin grid0.N,
    k0_off1 (grid0.coords t) 0 = 1024 * (t.val / 8) ∧ k0_off1 (grid0.coords t) 1 = 0
    ∧ k0_off2 (grid0.coords t) 0 = 512 * (t.val % 8) ∧ k0_off2 (grid0.coords t) 1 = 0
    ∧ k0_off3 (grid0.coords t) 0 = 512 * (t.val % 8) ∧ k0_off3 (grid0.coords t) 1 = 0 := by decide +kernel

/-- The block indices of the five windows, over the grid. -/
theorem idx_facts : ∀ t : Fin grid0.N,
    win0_0.index t 0 = 0 ∧ win0_0.index t 1 = 0 ∧ win0_1.index t 0 = 0 ∧ win0_1.index t 1 = 0
    ∧ win0_2.index t 0 = t.val / 8 ∧ win0_2.index t 1 = 0
    ∧ win0_3.index t 0 = t.val / 8 ∧ win0_3.index t 1 = t.val % 8
    ∧ win0_4.index t 0 = t.val / 8 ∧ win0_4.index t 1 = 0 ∧ win0_4.index t 2 = 0 := by decide +kernel

/-! ## The loads -/

theorem featI_apply (t : Fin cfg0.N) (x0 : Vec Ideal S4096x256 .f32) (p : Fin 1024) (k : Fin 256) :
    featI (grid0.coords t) x0 (ix2 p k) = x0 (ix2 (blockIx (T := 4) (B := 1024) (ti t) p) k) := by
  show x0 ((Rect.unit (s := S4096x256) (k0_off1 (grid0.coords t)) S1024x256.size (k0_off1_inb (grid0.coords t))).idx (ix2 p k)) = _
  refine congrArg x0 (funext fun a => Fin.ext ?_)
  match a with
  | ⟨0, _⟩ => show k0_off1 (grid0.coords t) 0 + 1 * p.val = 1024 * (t.val / 8) + p.val; rw [(offs t).1]; omega
  | ⟨1, _⟩ => show k0_off1 (grid0.coords t) 1 + 1 * k.val = k.val; rw [(offs t).2.1]; omega

theorem featJ_apply (t : Fin cfg0.N) (x0 : Vec Ideal S4096x256 .f32) (q : Fin 512) (k : Fin 256) :
    featJ (grid0.coords t) x0 (ix2 q k) = x0 (ix2 (blockIx (T := 8) (B := 512) (tj t) q) k) := by
  show x0 ((Rect.unit (s := S4096x256) (k0_off2 (grid0.coords t)) S512x256.size (k0_off2_inb (grid0.coords t))).idx (ix2 q k)) = _
  refine congrArg x0 (funext fun a => Fin.ext ?_)
  match a with
  | ⟨0, _⟩ => show k0_off2 (grid0.coords t) 0 + 1 * q.val = 512 * (t.val % 8) + q.val; rw [(offs t).2.2.1]; omega
  | ⟨1, _⟩ => show k0_off2 (grid0.coords t) 1 + 1 * k.val = k.val; rw [(offs t).2.2.2.1]; omega

theorem logitJ_apply (t : Fin cfg0.N) (x1 : Vec Ideal S4096x100 .f32) (q : Fin 512) (k : Fin 100) :
    logitJ (grid0.coords t) x1 (ix2 q k) = x1 (ix2 (blockIx (T := 8) (B := 512) (tj t) q) k) := by
  show x1 ((Rect.unit (s := S4096x100) (k0_off3 (grid0.coords t)) S512x100.size (k0_off3_inb (grid0.coords t))).idx (ix2 q k)) = _
  refine congrArg x1 (funext fun a => Fin.ext ?_)
  match a with
  | ⟨0, _⟩ => show k0_off3 (grid0.coords t) 0 + 1 * q.val = 512 * (t.val % 8) + q.val; rw [(offs t).2.2.2.2.1]; omega
  | ⟨1, _⟩ => show k0_off3 (grid0.coords t) 1 + 1 * k.val = k.val; rw [(offs t).2.2.2.2.2]; omega

/-! ## The windows' input blocks -/

theorem iblk0_apply (t : Fin cfg0.N) (r : Fin 4096) (k : Fin 256) :
    (iblk m c 0 t : S4096x256.Idx → EReal) (ix2 r k) = (m ((c.tc : Thread nD τ).loc main_arg0) : S4096x256.Idx → EReal) (ix2 r k) := by
  unfold iblk
  rw [View.read_apply]
  show (V m c main_arg0 : S4096x256.Idx → EReal) _ = (m (c.tc.loc main_arg0) : S4096x256.Idx → EReal) _
  rw [V_main_arg0]
  refine congrArg (m (c.tc.loc main_arg0) : S4096x256.Idx → EReal) (funext fun a => Fin.ext ?_)
  match a with
  | ⟨0, _⟩ => show win0_0.index t 0 * 4096 + 1 * r.val = r.val; rw [(idx_facts t).1]; omega
  | ⟨1, _⟩ => show win0_0.index t 1 * 256 + 1 * k.val = k.val; rw [(idx_facts t).2.1]; omega

theorem iblk1_apply (t : Fin cfg0.N) (r : Fin 4096) (k : Fin 100) :
    (iblk m c 1 t : S4096x100.Idx → EReal) (ix2 r k) = (m ((c.tc : Thread nD τ).loc main_arg1) : S4096x100.Idx → EReal) (ix2 r k) := by
  unfold iblk
  rw [View.read_apply]
  show (V m c main_arg1 : S4096x100.Idx → EReal) _ = (m (c.tc.loc main_arg1) : S4096x100.Idx → EReal) _
  rw [V_main_arg1]
  refine congrArg (m (c.tc.loc main_arg1) : S4096x100.Idx → EReal) (funext fun a => Fin.ext ?_)
  match a with
  | ⟨0, _⟩ => show win0_1.index t 0 * 4096 + 1 * r.val = r.val; rw [(idx_facts t).2.2.1]; omega
  | ⟨1, _⟩ => show win0_1.index t 1 * 100 + 1 * k.val = k.val; rw [(idx_facts t).2.2.2.1]; omega

theorem iblk2_apply (t : Fin cfg0.N) (p : Fin 1024) (k : Fin 100) :
    (iblk m c 2 t : S1024x100.Idx → EReal) (ix2 p k)
      = (m ((c.tc : Thread nD τ).loc main_arg2) : S4096x100.Idx → EReal) (ix2 (blockIx (T := 4) (B := 1024) (ti t) p) k) := by
  unfold iblk
  rw [View.read_apply]
  show (V m c main_arg2 : S4096x100.Idx → EReal) _ = (m (c.tc.loc main_arg2) : S4096x100.Idx → EReal) _
  rw [V_main_arg2]
  refine congrArg (m (c.tc.loc main_arg2) : S4096x100.Idx → EReal) (funext fun a => Fin.ext ?_)
  match a with
  | ⟨0, _⟩ => show win0_2.index t 0 * 1024 + 1 * p.val = 1024 * (t.val / 8) + p.val; rw [(idx_facts t).2.2.2.2.1]; omega
  | ⟨1, _⟩ => show win0_2.index t 1 * 100 + 1 * k.val = k.val; rw [(idx_facts t).2.2.2.2.2.1]; omega

/-! ## The body's results at a point -/

theorem unitI (t : Fin cfg0.N) (p : Fin 1024) (k : Fin 256) :
    k0_pay3 (featI (grid0.coords t) (iblk m c 0 t)) (ix2 p k) = unitRow (featRow m c (blockIx (T := 4) (B := 1024) (ti t) p)) k := by
  rw [pay3_apply]
  refine congrArg (fun x => unitRow x k) (funext fun k' => ?_)
  rw [featI_apply, iblk0_apply]

theorem unitJ (t : Fin cfg0.N) (q : Fin 512) (k : Fin 256) :
    k0_pay4 (featJ (grid0.coords t) (iblk m c 0 t)) (ix2 q k) = unitRow (featRow m c (blockIx (T := 8) (B := 512) (tj t) q)) k := by
  rw [pay4_apply]
  refine congrArg (fun x => unitRow x k) (funext fun k' => ?_)
  rw [featJ_apply, iblk0_apply]

theorem softI (t : Fin cfg0.N) (p : Fin 1024) (k : Fin 100) :
    k0_pay5 (iblk m c 2 t) (ix2 p k) = softRow (logit2Row m c (blockIx (T := 4) (B := 1024) (ti t) p)) k := by
  rw [pay5_apply]
  refine congrArg (fun x => softRow x k) (funext fun k' => ?_)
  rw [iblk2_apply]

/-- The label tile of point t at (p, q). -/
theorem labels_apply (t : Fin cfg0.N) (p : Fin 1024) (q : Fin 512) :
    labels (grid0.coords t) (iblk m c 0 t) (ix2 p q)
      = label (featRow m c (blockIx (T := 4) (B := 1024) (ti t) p)) (featRow m c (blockIx (T := 8) (B := 512) (tj t) q)) :=
  pay7_apply _ _ _ _ (unitI m c t) (unitJ m c t) p q

/-- The total cost of tile (i, j). -/
def tileCost (i : Fin 4) (j : Fin 8) : EReal :=
  ∑ p : Fin 1024, ∑ q : Fin 512,
    cost (featRow m c (blockIx (T := 4) (B := 1024) i p)) (featRow m c (blockIx (T := 8) (B := 512) j q))
      (logit2Row m c (blockIx (T := 4) (B := 1024) i p)) (logit1Row m c (blockIx (T := 8) (B := 512) j q))

/-- The accumulator after the body at point t: what it held plus the tile's cost. -/
theorem accum_apply (t : Fin cfg0.N) (acc : Vec Ideal S1x1 .f32) (y : S1x1.Idx) :
    accum (grid0.coords t) (iblk m c 0 t) (iblk m c 1 t) (iblk m c 2 t) acc y = acc y + tileCost m c (ti t) (tj t) := by
  unfold accum
  rw [pay8_apply _ _ _ _ (unitI m c t) (unitJ m c t) _ _ _ _ (softI m c t) y]
  unfold tileCost
  refine congrArg (acc y + ·) (Finset.sum_congr rfl fun p _ => Finset.sum_congr rfl fun q _ => ?_)
  refine congrArg (cost _ _ _) (funext fun k' => ?_)
  rw [logitJ_apply, iblk1_apply]

/-! ## What the outputs hold after each point -/

/-- After every point the label tile is that point's. -/
theorem labelTile (t : Fin cfg0.N) : (outsAt0 m c t.val t.isLt).1 = labels (grid0.coords t) (iblk m c 0 t) := by
  by_cases h0 : t.val % 8 = 0
  · have h1 : ¬t.val % 8 = 7 := by omega
    rw [outsAt0_A m c t h0 h1]
    dsimp only
    exact out3_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t)
  · by_cases h1 : t.val % 8 = 7
    · rw [outsAt0_C m c t h0 h1]
      dsimp only
      exact out3_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2
    · rw [outsAt0_B m c t h0 h1]
      dsimp only
      exact out3_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2

/-- The accumulator after a point of the first column tile: zero plus the tile's cost. -/
theorem acc_first (t : Fin cfg0.N) (h0 : t.val % 8 = 0) (y : S1x1.Idx) :
    (outsAt0 m c t.val t.isLt).2.2 y = tileCost m c (ti t) (tj t) := by
  have h1 : ¬t.val % 8 = 7 := by omega
  rw [outsAt0_A m c t h0 h1]
  dsimp only
  rw [acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t), accum_apply m c t _ y, pay2_apply, zero_add]

/-- The accumulator after any other point: what the point before left plus the tile's cost. -/
theorem acc_next (t : Fin cfg0.N) (h0 : ¬t.val % 8 = 0) (y : S1x1.Idx) :
    (outsAt0 m c t.val t.isLt).2.2 y
      = (outsAt0 m c (t.val - 1) (Nat.lt_of_le_of_lt (Nat.sub_le _ _) t.isLt)).2.2 y + tileCost m c (ti t) (tj t) := by
  by_cases h1 : t.val % 8 = 7
  · rw [outsAt0_C m c t h0 h1]
    dsimp only
    rw [acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2]
    exact accum_apply m c t _ y
  · rw [outsAt0_B m c t h0 h1]
    dsimp only
    rw [acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2]
    exact accum_apply m c t _ y

/-- The block of partial sums after a point of the last column tile: the accumulator's entry, everywhere. -/
theorem sumBlock_last (t : Fin cfg0.N) (h1 : t.val % 8 = 7) (y : S1x8x128.Idx) :
    (outsAt0 m c t.val t.isLt).2.1 y = (outsAt0 m c t.val t.isLt).2.2 (ix2 (0 : Fin 1) (0 : Fin 1)) := by
  have h0 : ¬t.val % 8 = 0 := by omega
  rw [outsAt0_C m c t h0 h1]
  dsimp only
  rw [out4_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2,
    acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2, pay1_apply]

/-- The cost of tile (i, j) by numbers (zero outside the grid of tiles). -/
def tileCostN (i j : ℕ) : EReal := if h : i < 4 ∧ j < 8 then tileCost m c ⟨i, h.1⟩ ⟨j, h.2⟩ else 0

theorem tileCostN_eq (t : Fin cfg0.N) : tileCostN m c (t.val / 8) (t.val % 8) = tileCost m c (ti t) (tj t) := by
  have h : t.val < 32 := lt_of_lt_of_eq t.isLt (show cfg0.N = 32 from N_0)
  unfold tileCostN
  rw [dif_pos ⟨by omega, by omega⟩]
  rfl

/-- THE FOLD: after point n the accumulator holds the costs of the tiles (n / 8, 0) … (n / 8, n % 8) added up. -/
theorem acc_fold (y : S1x1.Idx) : ∀ (n : ℕ) (hn : n < cfg0.N),
    (outsAt0 m c n hn).2.2 y = ∑ s ∈ Finset.range (n % 8 + 1), tileCostN m c (n / 8) s
  | 0, hn => by
    rw [acc_first m c ⟨0, hn⟩ rfl y, ← tileCostN_eq m c ⟨0, hn⟩]
    simp
  | n + 1, hn => by
    by_cases h0 : (n + 1) % 8 = 0
    · rw [acc_first m c ⟨n + 1, hn⟩ h0 y, ← tileCostN_eq m c ⟨n + 1, hn⟩]
      show tileCostN m c ((n + 1) / 8) ((n + 1) % 8) = _
      rw [h0]
      simp
    · rw [acc_next m c ⟨n + 1, hn⟩ h0 y, ← tileCostN_eq m c ⟨n + 1, hn⟩]
      show (outsAt0 m c (n + 1 - 1) _).2.2 y + tileCostN m c ((n + 1) / 8) ((n + 1) % 8) = _
      have e1 : (n + 1) / 8 = n / 8 := by omega
      have e2 : (n + 1) % 8 = n % 8 + 1 := by omega
      have ih := acc_fold y n (Nat.lt_of_succ_lt hn)
      simp only [Nat.add_sub_cancel] at *
      rw [ih, e1, e2, Finset.sum_range_succ _ (n % 8 + 1)]

/-- The cost of a whole row of tiles. -/
def rowCost (i : Fin 4) : EReal := ∑ j : Fin 8, tileCost m c i j

/-- So the block of partial sums a point of the last column tile writes back holds the row's cost. -/
theorem sumBlock_apply (t : Fin cfg0.N) (h1 : t.val % 8 = 7) (y : S1x8x128.Idx) :
    (outsAt0 m c t.val t.isLt).2.1 y = rowCost m c (ti t) := by
  have h : t.val < 32 := lt_of_lt_of_eq t.isLt (show cfg0.N = 32 from N_0)
  rw [sumBlock_last m c t h1 y, acc_fold m c _ t.val t.isLt, h1]
  unfold rowCost
  rw [Finset.sum_range (fun s => tileCostN m c (t.val / 8) s)]
  refine Finset.sum_congr rfl fun j _ => ?_
  unfold tileCostN
  rw [dif_pos ⟨by omega, j.isLt⟩]
  rfl

end Cert.KernelIdeal.Grid

end
-- ==== Proof.SumLaws.lean ====
/-
  The laws that join the two spellings of the loss.

  * The reference multiplies the agreement by the label and adds the indicator of a −1 label; the kernel selects
    between the agreement and one minus it. On a one-bit condition these are the same number: P · 1 + 0 = P and
    P · (−1) + 1 = 1 − P hold on the extended reals as they stand.
  * A label is +1 or −1, never 0, so the reference's mask is 1 at every pair and the number of unmasked pairs is
    4096 · 4096 = 2²⁴; the guarded quotient is then the plain quotient by 2²⁴.
  * The sum over all pairs is the sum over the 4 × 8 tiles of the sums inside each 1024 × 512 tile; only
    commutativity and associativity of the sum are used, so it holds with infinite terms too.
-/
import proofs.«131518_j87393994539652_2_alg».proof.Proof.Spec
import proofs.«131518_j87393994539652_2_alg».proof.Proof.LibFinBlocks
import proofs.«131518_j87393994539652_2_alg».proof.Proof.LibLaneReads

noncomputable section

namespace Cert.SumLaws

open Idealize.ShloMosaic Cert.ClusterSpec Cert.Proof.LibFinBlocks Cert.Proof.LibLaneReads

/-- The mean over all 4096 · 4096 pairs: the total divided by 2²⁴. -/
def meanOver (g : Fin 4096 → Fin 4096 → EReal) : EReal :=
  Ideal.div (∑ a : Fin 4096, ∑ b : Fin 4096, g a b) (Ideal.ofBits .f32 0x4B800000#32)

theorem one_ne_negOne : (1 : EReal) ≠ -1 := by
  intro h
  have := congrArg EReal.toReal h
  simp at this
  norm_num at this

theorem coe_bit_one : (((1#1 : BitVec 1).toNat : ℝ) : EReal) = 1 := by simp
theorem coe_bit_zero : (((0#1 : BitVec 1).toNat : ℝ) : EReal) = 0 := by simp

/-- Agreement times label plus the indicator of a −1 label is the selected term. -/
theorem pair_term (b : BitVec 1) (P : EReal) :
    P * Scalar.select b (Ideal.ofBits .f32 0x3F800000#32) (Ideal.ofBits .f32 0xBF800000#32)
      + FloatOps.uitofp (F := Ideal) .f32 (Ideal.cmp .oeq
          (Scalar.select b (Ideal.ofBits .f32 0x3F800000#32) (Ideal.ofBits .f32 0xBF800000#32)) (Ideal.ofBits .f32 0xBF800000#32))
      = Scalar.select b P (Ideal.ofBits .f32 0x3F800000#32 - P) := by
  rw [ofBits_one, ofBits_negOne]
  rcases BitVec.eq_zero_or_eq_one b with h | h <;> subst h
  · show P * (-1) + (((Ideal.cmp .oeq (-1 : EReal) (-1)).toNat : ℝ) : EReal) = 1 - P
    have : Ideal.cmp .oeq (-1 : EReal) (-1) = 1#1 := by simp [Ideal.cmp]
    rw [this, coe_bit_one, mul_neg, mul_one, add_comm, sub_eq_add_neg]
  · show P * 1 + (((Ideal.cmp .oeq (1 : EReal) (-1)).toNat : ℝ) : EReal) = P
    have : Ideal.cmp .oeq (1 : EReal) (-1) = 0#1 := by simp [Ideal.cmp, one_ne_negOne]
    rw [this, coe_bit_zero, mul_one, add_zero]

/-- A label is never 0: the mask is 1. -/
theorem mask_term (b : BitVec 1) :
    FloatOps.uitofp (F := Ideal) .f32 (Ideal.cmp .une
        (Scalar.select b (Ideal.ofBits .f32 0x3F800000#32) (Ideal.ofBits .f32 0xBF800000#32)) (Ideal.ofBits .f32 0x00000000#32))
      = 1 := by
  rw [ofBits_one, ofBits_negOne, Ideal.ofBits_zero_f32]
  rcases BitVec.eq_zero_or_eq_one b with h | h <;> subst h
  · show (((Ideal.cmp .une (-1 : EReal) 0).toNat : ℝ) : EReal) = 1
    have : Ideal.cmp .une (-1 : EReal) 0 = 1#1 := by simp [Ideal.cmp]
    rw [this]; exact coe_bit_one
  · show (((Ideal.cmp .une (1 : EReal) 0).toNat : ℝ) : EReal) = 1
    have : Ideal.cmp .une (1 : EReal) 0 = 1#1 := by simp [Ideal.cmp]
    rw [this]; exact coe_bit_one

/-- With 2²⁴ unmasked pairs the guarded quotient is the quotient by 2²⁴. -/
theorem guarded_mean (S D : EReal) (hD : D = ((16777216 : ℝ) : EReal)) :
    Scalar.select (Ideal.cmp .ogt D (Ideal.ofBits .f32 0x00000000#32))
        (Ideal.div S (max D (Ideal.ofBits .f32 0x3F800000#32))) (Ideal.div S (Ideal.ofBits .f32 0x4B800000#32))
      = Ideal.div S (Ideal.ofBits .f32 0x4B800000#32) := by
  subst hD
  rw [Ideal.ofBits_zero_f32, ofBits_one, ofBits_two24]
  have hpos : (0 : EReal) < ((16777216 : ℝ) : EReal) := by exact_mod_cast (by norm_num : (0 : ℝ) < 16777216)
  have hc : Ideal.cmp .ogt ((16777216 : ℝ) : EReal) 0 = 1#1 := by simp [Ideal.cmp, hpos]
  have hm : max ((16777216 : ℝ) : EReal) 1 = ((16777216 : ℝ) : EReal) :=
    max_eq_left (by exact_mod_cast (by norm_num : (1 : ℝ) ≤ 16777216))
  rw [hc, hm]
  rfl

/-- 4096 · 4096 ones add up to 2²⁴. -/
theorem count_pairs : ∑ _a : Fin 4096, ∑ _b : Fin 4096, (1 : EReal) = ((16777216 : ℝ) : EReal) := by
  simp only [Finset.sum_const, Finset.card_univ, Fintype.card_fin]
  rw [← EReal.coe_one, nsmul_coe, nsmul_coe]
  norm_num

/-- The sum over all pairs, tile by tile. -/
theorem sum_tiles {M : Type*} [AddCommMonoid M] (g : Fin 4096 → Fin 4096 → M) :
    ∑ a : Fin 4096, ∑ b : Fin 4096, g a b
      = ∑ i : Fin 4, ∑ j : Fin 8, ∑ p : Fin 1024, ∑ q : Fin 512,
          g (blockIx (T := 4) (B := 1024) i p) (blockIx (T := 8) (B := 512) j q) := by
  have h1 : ∑ a : Fin 4096, ∑ b : Fin 4096, g a b
      = ∑ i : Fin 4, ∑ p : Fin 1024, ∑ b : Fin 4096, g (blockIx (T := 4) (B := 1024) i p) b :=
    sum_blocks (T := 4) (B := 1024) (fun a => ∑ b : Fin 4096, g a b)
  have h2 : ∀ a : Fin 4096, ∑ b : Fin 4096, g a b = ∑ j : Fin 8, ∑ q : Fin 512, g a (blockIx (T := 8) (B := 512) j q) :=
    fun a => sum_blocks (T := 8) (B := 512) (fun b => g a b)
  rw [h1]
  refine Finset.sum_congr rfl fun i _ => ?_
  simp only [h2]
  exact Finset.sum_comm

end Cert.SumLaws

end
-- ==== Proof.KArrays.lean ====
/-
  The kernel's two results. The 4096 × 4096 array of labels is tiled by the 32 label tiles, tile (i, j) written back at
  point 8 i + j, so it ends as the matrix of labels; the 4 × 8 × 128 array of partial sums is written one 1 × 8 × 128
  block per row of tiles, at the row's last point, and holds the row's cost everywhere in block i. The host then
  flattens the labels, takes entry (i, 0, 0) of each block of partial sums, adds the four and divides by 2²⁴: the sum
  over the 4 × 8 tiles of the sums inside each tile is the sum over all pairs, so this is the mean of the costs.
-/
import proofs.«131518_j87393994539652_2_alg».proof.Proof.KGrid
import proofs.«131518_j87393994539652_2_alg».proof.Proof.SumLaws
import Idealize.ShloMosaic.Lib.Pipeline.Value
import Idealize.ShloMosaic.Lib.StableHlo.Run
import Idealize.ShloMosaic.Lib.ValueIdx

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pieces Cert.KernelIdeal.Grid Cert.ClusterSpec Cert.SumLaws
open Cert.Proof.LibFinBlocks

variable (m : (ℓ : Loc nD τ sig) → Buf (Elt Ideal) ℓ) (ρ : Dev nD → PrngReg) (c : Dev nD)

/-- The matrix of labels, and the array of partial sums (block i holds the cost of row i of tiles). -/
def labelArr : S4096x4096.Idx → EReal := fun j => label (featRow m c (j 0 : Fin 4096)) (featRow m c (j 1 : Fin 4096))
def sumArr : S4x8x128.Idx → EReal := fun j => rowCost m c (j 0 : Fin 4)

/-! ## The array of labels -/

theorem flushed3_eq (t : Fin cfg0.N) :
    (dats m 0 c).flushed 3 t = ((cfg0.win 3).blk t).view.read (Elt Ideal) (labelArr m c) := by
  show (cfg0.win 3).cut (grid0.coords t) ((dats m 0 c).after 3 t) = _
  rw [after0_3, labelTile]
  funext y
  obtain ⟨p, q, rfl⟩ : ∃ (p : Fin 1024) (q : Fin 512), y = ix2 p q := ⟨y 0, y 1, eq_ix2 y⟩
  show labels (grid0.coords t) (iblk m c 0 t) (ix2 p q) = labelArr m c (((cfg0.win 3).blk t).view.emb (ix2 p q))
  rw [labels_apply]
  unfold labelArr
  have e0 : (blockIx (T := 4) (B := 1024) (ti t) p : Fin 4096) = ((((cfg0.win 3).blk t).view.emb (ix2 p q)) 0 : Fin 4096) :=
    Fin.ext (by
      show 1024 * (t.val / 8) + p.val = win0_3.index t 0 * 1024 + 1 * p.val
      rw [(idx_facts t).2.2.2.2.2.2.1]; omega)
  have e1 : (blockIx (T := 8) (B := 512) (tj t) q : Fin 4096) = ((((cfg0.win 3).blk t).view.emb (ix2 p q)) 1 : Fin 4096) :=
    Fin.ext (by
      show 512 * (t.val % 8) + q.val = win0_3.index t 1 * 512 + 1 * q.val
      rw [(idx_facts t).2.2.2.2.2.2.2.1]; omega)
  rw [e0, e1]

theorem mem_blk3 (t : Fin cfg0.N) (i : S4096x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0_0).slice (win0_3.rect t)).set ↔ _
  rw [View.set_slice_whole, Rect.mem_set_unit]
  exact Iff.rfl

theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  have hb : 8 * ((i 0).val / 1024) + (i 1).val / 512 < cfg0.N := by rw [hN]; omega
  refine ⟨⟨8 * ((i 0).val / 1024) + (i 1).val / 512, hb⟩, flush0_3 _, ?_⟩
  rw [mem_blk3]
  have q0 := (idx_facts ⟨8 * ((i 0).val / 1024) + (i 1).val / 512, hb⟩).2.2.2.2.2.2.1
  have q1 := (idx_facts ⟨8 * ((i 0).val / 1024) + (i 1).val / 512, hb⟩).2.2.2.2.2.2.2.1
  intro a
  match a with
  | ⟨0, _⟩ =>
    show win0_3.index ⟨8 * ((i 0).val / 1024) + (i 1).val / 512, hb⟩ 0 * 1024 ≤ (i 0).val
      ∧ (i 0).val < win0_3.index ⟨8 * ((i 0).val / 1024) + (i 1).val / 512, hb⟩ 0 * 1024 + 1024
    rw [q0]; show (8 * ((i 0).val / 1024) + (i 1).val / 512) / 8 * 1024 ≤ _ ∧ _ < (8 * ((i 0).val / 1024) + (i 1).val / 512) / 8 * 1024 + 1024
    omega
  | ⟨1, _⟩ =>
    show win0_3.index ⟨8 * ((i 0).val / 1024) + (i 1).val / 512, hb⟩ 1 * 512 ≤ (i 1).val
      ∧ (i 1).val < win0_3.index ⟨8 * ((i 0).val / 1024) + (i 1).val / 512, hb⟩ 1 * 512 + 512
    rw [q1]; show (8 * ((i 0).val / 1024) + (i 1).val / 512) % 8 * 512 ≤ _ ∧ _ < (8 * ((i 0).val / 1024) + (i 1).val / 512) % 8 * 512 + 512
    omega

/-- The array of labels after the run. -/
theorem final3 : (dats m 0 c).arrAt 3 cfg0.N = labelArr m c :=
  (dats m 0 c).arrAt_eq_of_cover 3 (labelArr m c) (fun t _ => flushed3_eq m c t) (cover3)

/-! ## The array of partial sums -/

theorem flushed4_eq (t : Fin cfg0.N) (hf : (cfg0.win 4).flush t = true) :
    (dats m 0 c).flushed 4 t = ((cfg0.win 4).blk t).view.read (Elt Ideal) (sumArr m c) := by
  have h7 : t.val % 8 = 7 := (flush0_4 t).mp hf
  show (cfg0.win 4).cut (grid0.coords t) ((dats m 0 c).after 4 t) = _
  rw [after0_4]
  funext y
  show (outsAt0 m c t.val t.isLt).2.1 y = sumArr m c (((cfg0.win 4).blk t).view.emb y)
  rw [sumBlock_apply m c t h7 y]
  unfold sumArr
  refine congrArg (rowCost m c) (Fin.ext ?_)
  have hy : (y 0).val < 1 := (y 0).isLt
  show t.val / 8 = win0_4.index t 0 * 1 + 1 * (y 0).val
  rw [(idx_facts t).2.2.2.2.2.2.2.2.1]; omega

theorem mem_blk4 (t : Fin cfg0.N) (i : S4x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0_1).slice (win0_4.rect t)).set ↔ _
  rw [View.set_slice_whole, Rect.mem_set_unit]
  exact Iff.rfl

theorem cover4 (i : S4x8x128.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 128 := (i 2).isLt
  have hN : cfg0.N = 32 := N_0
  have hb : 8 * (i 0).val + 7 < cfg0.N := by rw [hN]; omega
  refine ⟨⟨8 * (i 0).val + 7, hb⟩, (flush0_4 _).mpr (by show (8 * (i 0).val + 7) % 8 = 7; omega), ?_⟩
  rw [mem_blk4]
  have q0 := (idx_facts ⟨8 * (i 0).val + 7, hb⟩).2.2.2.2.2.2.2.2.1
  have q1 := (idx_facts ⟨8 * (i 0).val + 7, hb⟩).2.2.2.2.2.2.2.2.2.1
  have q2 := (idx_facts ⟨8 * (i 0).val + 7, hb⟩).2.2.2.2.2.2.2.2.2.2
  intro a
  match a with
  | ⟨0, _⟩ =>
    show win0_4.index ⟨8 * (i 0).val + 7, hb⟩ 0 * 1 ≤ (i 0).val ∧ (i 0).val < win0_4.index ⟨8 * (i 0).val + 7, hb⟩ 0 * 1 + 1
    rw [q0]; show (8 * (i 0).val + 7) / 8 * 1 ≤ _ ∧ _ < (8 * (i 0).val + 7) / 8 * 1 + 1; omega
  | ⟨1, _⟩ =>
    show win0_4.index ⟨8 * (i 0).val + 7, hb⟩ 1 * 8 ≤ (i 1).val ∧ (i 1).val < win0_4.index ⟨8 * (i 0).val + 7, hb⟩ 1 * 8 + 8
    rw [q1]; omega
  | ⟨2, _⟩ =>
    show win0_4.index ⟨8 * (i 0).val + 7, hb⟩ 2 * 128 ≤ (i 2).val ∧ (i 2).val < win0_4.index ⟨8 * (i 0).val + 7, hb⟩ 2 * 128 + 128
    rw [q2]; omega

/-- The array of partial sums after the run. -/
theorem final4 : (dats m 0 c).arrAt 4 cfg0.N = sumArr m c :=
  (dats m 0 c).arrAt_eq_of_cover 4 (sumArr m c) (flushed4_eq m c) (cover4)

end Cert.KernelIdeal.Arrays

end
-- ==== Proof.KTail.lean ====
/-
  After the region: the host flattens the array of labels, and from the array of partial sums takes entry (i, 0, 0) of
  each of the four blocks, adds them from zero and divides by 2²⁴. Block i holds the cost of row i of tiles, a row's cost
  is the sum of its eight tiles' costs, and the tiles partition the pairs: the quotient is the mean of the costs over all
  4096 · 4096 pairs. The run of the whole program is the generated frame run with these two results read off its post.
-/
import proofs.«131518_j87393994539652_2_alg».proof.Proof.KArrays
import Idealize.ShloMosaic.Lib.Tactic
import Idealize.ShloMosaic.Lib.StableHlo.Run

noncomputable section

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.Grid Cert.KernelIdeal.Arrays Cert.ClusterSpec Cert.SumLaws
open Cert.Proof.LibFinBlocks Cert.Proof.LibLaneReads

variable (m : (ℓ : Loc nD τ sig) → Buf (Elt Ideal) ℓ) (ρ : Dev nD → PrngReg) (c : Dev nD)

/-- The cost of the pair (a, b) of samples. -/
abbrev pairCost (a b : Fin 4096) : EReal := cost (featRow m c a) (featRow m c b) (logit2Row m c a) (logit1Row m c b)

/-- The two results: the mean cost, and the flattened labels. -/
def lossVal : S_.Idx → EReal := fun _ => meanOver (pairCost m c)
def labelsVal : S16777216.Idx → EReal := shapeCast S16777216 (labelArr m c) shapeCasts_S4096x4096_S16777216

/-- What the region leaves in its two output arrays. -/
theorem arr3 : Pipeline.withArrays spec0 c (V0 m c) (fun w => (dats m 0 c).arrAt w cfg0.N) (Proc.devRef .tc main_v0_0) = labelArr m c :=
  (Pipeline.withArrays_arr spec0 launch0.win.arr_inj c _ _ 3).trans (final3 m c)

theorem arr4 : Pipeline.withArrays spec0 c (V0 m c) (fun w => (dats m 0 c).arrAt w cfg0.N) (Proc.devRef .tc main_v0_1) = sumArr m c :=
  (Pipeline.withArrays_arr spec0 launch0.win.arr_inj c _ _ 4).trans (final4 m c)

/-- The host's scalar chain on an array of partial sums. -/
def tailLoss (A : S4x8x128.Idx → EReal) : S_.Idx → EReal :=
  Host.divf (F := Ideal) (Host.reduceAdd (F := Ideal)
      (shapeCast S4 (extractStridedSlice S4x1x1 ![0, 0, 0] A slices_S4x8x128_S4x1x1_0_0_0) shapeCasts_S4x1x1_S4)
      (constant (F := Ideal) S_ .f32 0x00000000#32) reducesTo_S4_S_d0 h_S_)
    (constant (F := Ideal) S_ .f32 0x4B800000#32)

/-- It is the four entries (i, 0, 0) added up, over 2²⁴. -/
theorem tailLoss_apply (A : S4x8x128.Idx → EReal) (j : S_.Idx) :
    tailLoss A j = Ideal.div (∑ i : Fin 4, A (ix3 i (0 : Fin 8) (0 : Fin 128))) (Ideal.ofBits .f32 0x4B800000#32) := by
  show Ideal.div (Host.reduceAdd (F := Ideal) (shapeCast S4 (extractStridedSlice S4x1x1 ![0, 0, 0] A slices_S4x8x128_S4x1x1_0_0_0)
      shapeCasts_S4x1x1_S4) (constant (F := Ideal) S_ .f32 0x00000000#32) reducesTo_S4_S_d0 h_S_ j) (Ideal.ofBits .f32 0x4B800000#32) = _
  refine congrArg (fun z => Ideal.div z (Ideal.ofBits .f32 0x4B800000#32)) ?_
  simp only [Host.reduceAdd, Ideal.hostReduceAdd_def]
  rw [Ideal.hostReduceAdd_total reducesTo_S4_S_d0 (fun b => b.elim0)]
  show Ideal.ofBits .f32 0x00000000#32 + ∑ i : S4.Idx, shapeCast S4 (extractStridedSlice S4x1x1 ![0, 0, 0] A slices_S4x8x128_S4x1x1_0_0_0)
      shapeCasts_S4x1x1_S4 i = _
  rw [Ideal.ofBits_zero_f32, zero_add, sum_idx1]
  refine Finset.sum_congr rfl fun k _ => ?_
  refine (shapeCast_apply _ shapeCasts_S4x1x1_S4 (ix1 k) (ix3 k (0 : Fin 1) (0 : Fin 1)) (by
    rw [Shape.rowMajor_val_three, Shape.rowMajor_val_one]
    show (k.val * 1 + 0) * 1 + 0 = k.val
    omega)).trans ?_
  exact extractStridedSlice_apply ![0, 0, 0] A slices_S4x8x128_S4x1x1_0_0_0 (ix3 k (0 : Fin 1) (0 : Fin 1)) (ix3 k (0 : Fin 8) (0 : Fin 128))
    (fun ax => match ax with
      | ⟨0, _⟩ => by show k.val = 0 + k.val; omega
      | ⟨1, _⟩ => rfl
      | ⟨2, _⟩ => rfl)

/-- The four rows of tiles together hold every pair once: the chain on the kernel's partial sums is the mean cost. -/
theorem tailLoss_sumArr : tailLoss (sumArr m c) = lossVal m c := by
  funext j
  rw [tailLoss_apply]
  unfold lossVal meanOver
  refine congrArg (fun z => Ideal.div z (Ideal.ofBits .f32 0x4B800000#32)) ?_
  rw [sum_tiles (pairCost m c)]
  rfl

/-- The tail's two results. -/
theorem tail_labels : Pipeline.afterTail₀ cfgs (dats m) 0 (V0 m) [hostOps1] c main_v1 = labelsVal m c := by
  unfold Pipeline.afterTail₀
  show StableHlo.after hostOps1 _ (Proc.devRef .tc main_v1) = _
  after_results
  unfold labelsVal
  rw [← arr3 m c]
  rfl

theorem tail_loss : Pipeline.afterTail₀ cfgs (dats m) 0 (V0 m) [hostOps1] c main_v5 = lossVal m c := by
  unfold Pipeline.afterTail₀
  show StableHlo.after hostOps1 _ (Proc.devRef .tc main_v5) = _
  after_results
  rw [← tailLoss_sumArr m c, ← arr4 m c]
  rfl

/-- THE RUN: every weakly fair execution of the kernel's program terminates with the mean cost and the flattened labels in
    its two result buffers and its four argument arrays unchanged. -/
theorem run : θ_run defs (onTc (τ := τ) (main (F := Ideal))) ⟨m, fun _ => 0, ρ⟩ fun r => ∀ c : Dev nD,
      r.2.mem ((c.tc : Thread nD τ).loc main_v5) = lossVal m c
      ∧ r.2.mem ((c.tc : Thread nD τ).loc main_v1) = labelsVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_loss m c),
      ((h c).2 main_v1 (Pipeline.mem_restRefs_of main_v1 (by decide) (by decide))).trans (tail_labels m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Tail

end
-- ==== Proof.RefRun.lean ====
/-
  The reference, run: its 84 host operations in program order (each called function's operations standing where the
  call stands), and what the two results hold afterwards, stated through a few named stages — the probabilities of
  every logit row, the unit-length feature rows, the matrix of cosines, the flattened labels, costs and mask, and the
  loss, a mean of the costs spelt the way the reference spells it (a guarded quotient by the number of pairs).
-/
import proofs.«131518_j87393994539652_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- exp(u − top u) for every row u of a logit array (the row maximum taken from −∞, and once more against −∞). -/
def expAll (x : (⟨S4096x100, .f32⟩ : BufTy).Contents (Elt F)) : (⟨S4096x100, .f32⟩ : BufTy).Contents (Elt F) :=
  Host.exp (subf x (broadcastInDim S4096x100 ![0, 1] bcast_S4096x1_S4096x100_0_1 (broadcastInDim S4096x1 ![0] bcast_S4096_S4096x1_0
    (maximumf (broadcastInDim S4096 ![] bcast_S_S4096 (constant (F := F) S_ .f32 0xFF800000#32))
      (Host.reduce FloatOps.maximumf x (constant (F := F) S_ .f32 0xFF800000#32) reducesTo_S4096x100_S4096_d1 h_S_)))))

/-- The probabilities of every row of a logit array. -/
def softAll (x : (⟨S4096x100, .f32⟩ : BufTy).Contents (Elt F)) : (⟨S4096x100, .f32⟩ : BufTy).Contents (Elt F) :=
  Host.divf (expAll x) (broadcastInDim S4096x100 ![0, 1] bcast_S4096x1_S4096x100_0_1 (broadcastInDim S4096x1 ![0] bcast_S4096_S4096x1_0
    (Host.reduceAdd (expAll x) (constant (F := F) S_ .f32 0x00000000#32) reducesTo_S4096x100_S4096_d1 h_S_)))

/-- Every feature row scaled to unit length. -/
def unitAll (x : (⟨S4096x256, .f32⟩ : BufTy).Contents (Elt F)) : (⟨S4096x256, .f32⟩ : BufTy).Contents (Elt F) :=
  Host.divf x (broadcastInDim S4096x256 ![0, 1] bcast_S4096x1_S4096x256_0_1
    (maximumf (broadcastInDim S4096x1 ![] bcast_S_S4096x1 (id (constant (F := F) S_ .f32 0x2B8CBCCC#32)))
      (Host.sqrt (broadcastInDim S4096x1 ![0] bcast_S4096_S4096x1_0
        (Host.reduceAdd (mulf x x) (constant (F := F) S_ .f32 0x00000000#32) reducesTo_S4096x256_S4096_d1 h_S_)))))

/-- The matrix of cosines of all pairs of feature rows. -/
def cosAll (x : (⟨S4096x256, .f32⟩ : BufTy).Contents (Elt F)) : (⟨S4096x4096, .f32⟩ : BufTy).Contents (Elt F) :=
  Host.dotGeneral dot_S4096x256_S256x4096_S4096x4096_1_0_0_1_n_n none (unitAll x)
    (transpose S256x4096 [1, 0] (unitAll x) transposes_S4096x256_S256x4096_1_0)

/-- The matrix of agreements: probabilities of the second logit array against those of the first. -/
def agreeAll (x1 x2 : (⟨S4096x100, .f32⟩ : BufTy).Contents (Elt F)) : (⟨S4096x4096, .f32⟩ : BufTy).Contents (Elt F) :=
  Host.dotGeneral dot_S4096x100_S100x4096_S4096x4096_1_0_0_1_n_n none (softAll x2)
    (transpose S100x4096 [1, 0] (softAll x1) transposes_S4096x100_S100x4096_1_0)

/-- The labels of all pairs, flattened: +1 where the cosine exceeds the threshold, −1 elsewhere. -/
def labelFlat (x : (⟨S4096x256, .f32⟩ : BufTy).Contents (Elt F)) : (⟨S16777216, .f32⟩ : BufTy).Contents (Elt F) :=
  id (select (cmpf .ogt (shapeCast S16777216 (cosAll x) shapeCasts_S4096x4096_S16777216)
      (broadcastInDim S16777216 ![] bcast_S_S16777216 (constant (F := F) S_ .f32 0x3F733333#32)))
    (broadcastInDim S16777216 ![] bcast_S_S16777216 (constant (F := F) S_ .f32 0x3F800000#32))
    (broadcastInDim S16777216 ![] bcast_S_S16777216 (constant (F := F) S_ .f32 0xBF800000#32)))

/-- The costs of all pairs, flattened: −log(agreement · label + [label = −1] + ε). -/
def costFlat (x0 : (⟨S4096x256, .f32⟩ : BufTy).Contents (Elt F)) (x1 x2 : (⟨S4096x100, .f32⟩ : BufTy).Contents (Elt F)) : (⟨S16777216, .f32⟩ : BufTy).Contents (Elt F) :=
  Host.negf (Host.log (addf (addf
    (mulf (shapeCast S16777216 (agreeAll x1 x2) shapeCasts_S4096x4096_S16777216) (labelFlat x0))
    (uitofp .f32 (cmpf .oeq (labelFlat x0) (broadcastInDim S16777216 ![] bcast_S_S16777216 (constant (F := F) S_ .f32 0xBF800000#32)))))
    (broadcastInDim S16777216 ![] bcast_S_S16777216 (constant (F := F) S_ .f32 0x33D6BF95#32))))

/-- The mask [label ≠ 0] of all pairs, flattened. -/
def maskFlat (x0 : (⟨S4096x256, .f32⟩ : BufTy).Contents (Elt F)) : (⟨S16777216, .f32⟩ : BufTy).Contents (Elt F) :=
  uitofp .f32 (cmpf .une (labelFlat x0) (broadcastInDim S16777216 ![] bcast_S_S16777216 (constant (F := F) S_ .f32 0x00000000#32)))

/-- The loss: the masked costs' sum over the masked count when that count is positive, their plain mean otherwise. -/
def lossOf (x0 : (⟨S4096x256, .f32⟩ : BufTy).Contents (Elt F)) (x1 x2 : (⟨S4096x100, .f32⟩ : BufTy).Contents (Elt F)) : (⟨S_, .f32⟩ : BufTy).Contents (Elt F) :=
  select (cmpf .ogt (Host.reduceAdd (maskFlat x0) (constant (F := F) S_ .f32 0x00000000#32) reducesTo_S16777216_S_d0 h_S_) (constant (F := F) S_ .f32 0x00000000#32))
    (Host.divf (Host.reduceAdd (mulf (costFlat x0 x1 x2) (maskFlat x0)) (constant (F := F) S_ .f32 0x00000000#32) reducesTo_S16777216_S_d0 h_S_)
      (maximumf (Host.reduceAdd (maskFlat x0) (constant (F := F) S_ .f32 0x00000000#32) reducesTo_S16777216_S_d0 h_S_) (constant (F := F) S_ .f32 0x3F800000#32)))
    (Host.divf (Host.reduceAdd (mulf (costFlat x0 x1 x2) (maskFlat x0)) (constant (F := F) S_ .f32 0x00000000#32) reducesTo_S16777216_S_d0 h_S_)
      (constant (F := F) S_ .f32 0x4B800000#32))

/-! ## The run -/

/-- @main's 84 operations, in order. -/
abbrev ops : List (HloOp τ sig (Elt F)) :=
  [
    nullary main_cst (constant S_ .f32 0xFF800000#32),
    binary main_arg1 main_cst main_v0 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v1 (broadcastInDim S4096 ![] bcast_S_S4096 : (⟨S_, .f32⟩ : BufTy).Contents (Elt F) → (⟨S4096, .f32⟩ : BufTy).Contents (Elt F)),
    binary main_v1 main_v0 main_v2 (maximumf : (⟨S4096, .f32⟩ : BufTy).Contents (Elt F) → (⟨S4096, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    unary main_v3 main_v4 (broadcastInDim S4096x100 ![0, 1] bcast_S4096x1_S4096x100_0_1 : (⟨S4096x1, .f32⟩ : BufTy).Contents (Elt F) → (⟨S4096x100, .f32⟩ : BufTy).Contents (Elt F)),
    binary main_arg1 main_v4 main_v5 (subf : (⟨S4096x100, .f32⟩ : BufTy).Contents (Elt F) → (⟨S4096x100, .f32⟩ : BufTy).Contents (Elt F) → (⟨S4096x100, .f32⟩ : BufTy).Contents (Elt F)),
    unary main_v5 main_v6 (Host.exp : (⟨S4096x100, .f32⟩ : BufTy).Contents (Elt F) → (⟨S4096x100, .f32⟩ : BufTy).Contents (Elt F)),
    nullary main_cst_1 (constant S_ .f32 0x00000000#32),
    binary main_v6 main_cst_1 main_v7 ((fun x v => Host.reduceAdd x v reducesTo_S4096x100_S4096_d1 h_S_) : (⟨S4096x100, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    unary main_v8 main_v9 (broadcastInDim S4096x100 ![0, 1] bcast_S4096x1_S4096x100_0_1 : (⟨S4096x1, .f32⟩ : BufTy).Contents (Elt F) → (⟨S4096x100, .f32⟩ : BufTy).Contents (Elt F)),
    binary main_v6 main_v9 main_v10 (Host.divf : (⟨S4096x100, .f32⟩ : BufTy).Contents (Elt F) → (⟨S4096x100, .f32⟩ : BufTy).Contents (Elt F) → (⟨S4096x100, .f32⟩ : BufTy).Contents (Elt F)),
    nullary main_cst_2 (constant S_ .f32 0xFF800000#32),
    binary main_arg2 main_cst_2 main_v11 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v12 (broadcastInDim S4096 ![] bcast_S_S4096 : (⟨S_, .f32⟩ : BufTy).Contents (Elt F) → (⟨S4096, .f32⟩ : BufTy).Contents (Elt F)),
    binary main_v12 main_v11 main_v13 (maximumf : (⟨S4096, .f32⟩ : BufTy).Contents (Elt F) → (⟨S4096, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    unary main_v14 main_v15 (broadcastInDim S4096x100 ![0, 1] bcast_S4096x1_S4096x100_0_1 : (⟨S4096x1, .f32⟩ : BufTy).Contents (Elt F) → (⟨S4096x100, .f32⟩ : BufTy).Contents (Elt F)),
    binary main_arg2 main_v15 main_v16 (subf : (⟨S4096x100, .f32⟩ : BufTy).Contents (Elt F) → (⟨S4096x100, .f32⟩ : BufTy).Contents (Elt F) → (⟨S4096x100, .f32⟩ : BufTy).Contents (Elt F)),
    unary main_v16 main_v17 (Host.exp : (⟨S4096x100, .f32⟩ : BufTy).Contents (Elt F) → (⟨S4096x100, .f32⟩ : BufTy).Contents (Elt F)),
    nullary main_cst_4 (constant S_ .f32 0x00000000#32),
    binary main_v17 main_cst_4 main_v18 ((fun x v => Host.reduceAdd x v reducesTo_S4096x100_S4096_d1 h_S_) : (⟨S4096x100, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    unary main_v19 main_v20 (broadcastInDim S4096x100 ![0, 1] bcast_S4096x1_S4096x100_0_1 : (⟨S4096x1, .f32⟩ : BufTy).Contents (Elt F) → (⟨S4096x100, .f32⟩ : BufTy).Contents (Elt F)),
    binary main_v17 main_v20 main_v21 (Host.divf : (⟨S4096x100, .f32⟩ : BufTy).Contents (Elt F) → (⟨S4096x100, .f32⟩ : BufTy).Contents (Elt F) → (⟨S4096x100, .f32⟩ : BufTy).Contents (Elt F)),
    TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v22) Host.sqrt,
    nullary main_cst_5 (constant S_ .f32 0x2B8CBCCC#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S4096x1, .f32⟩) main_call1_v1) (broadcastInDim S4096x1 ![] bcast_S_S4096x1),
    TRef.binary (TRef.of (T := ⟨S4096x1, .f32⟩) main_call1_v1) (TRef.of (T := ⟨S4096x1, .f32⟩) main_v22) (TRef.of (T := ⟨S4096x1, .f32⟩) main_v23) maximumf,
    unary main_v23 main_v24 (broadcastInDim S4096x256 ![0, 1] bcast_S4096x1_S4096x256_0_1 : (⟨S4096x1, .f32⟩ : BufTy).Contents (Elt F) → (⟨S4096x256, .f32⟩ : BufTy).Contents (Elt F)),
    binary main_arg0 main_v24 main_v25 (Host.divf : (⟨S4096x256, .f32⟩ : BufTy).Contents (Elt F) → (⟨S4096x256, .f32⟩ : BufTy).Contents (Elt F) → (⟨S4096x256, .f32⟩ : BufTy).Contents (Elt F)),
    unary main_v25 main_v26 ((transpose S256x4096 [1, 0] · transposes_S4096x256_S256x4096_1_0) : (⟨S4096x256, .f32⟩ : BufTy).Contents (Elt F) → (⟨S256x4096, .f32⟩ : BufTy).Contents (Elt F)),
    binary main_v25 main_v26 main_v27 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    reshape main_v27 main_v28 rfl shapeCasts_S4096x4096_S16777216,
    nullary main_cst_6 (constant S_ .f32 0x3F733333#32),
    unary main_cst_6 main_v29 (broadcastInDim S16777216 ![] bcast_S_S16777216 : (⟨S_, .f32⟩ : BufTy).Contents (Elt F) → (⟨S16777216, .f32⟩ : BufTy).Contents (Elt F)),
    binary main_v28 main_v29 main_v30 (cmpf .ogt : (⟨S16777216, .f32⟩ : BufTy).Contents (Elt F) → (⟨S16777216, .f32⟩ : BufTy).Contents (Elt F) → (⟨S16777216, .i1⟩ : BufTy).Contents (Elt F)),
    nullary main_cst_7 (constant S_ .f32 0x3F800000#32),
    nullary main_cst_8 (constant S_ .f32 0xBF800000#32),
    TRef.unary (TRef.of (T := ⟨S_, .f32⟩) main_cst_7) (TRef.of (T := ⟨S16777216, .f32⟩) main_call2_v0) (broadcastInDim S16777216 ![] bcast_S_S16777216),
    TRef.unary (TRef.of (T := ⟨S_, .f32⟩) main_cst_8) (TRef.of (T := ⟨S16777216, .f32⟩) main_call2_v1) (broadcastInDim S16777216 ![] bcast_S_S16777216),
    TRef.ternary (TRef.of (T := ⟨S16777216, .i1⟩) main_v30) (TRef.of (T := ⟨S16777216, .f32⟩) main_call2_v0) (TRef.of (T := ⟨S16777216, .f32⟩) main_call2_v1) (TRef.of (T := ⟨S16777216, .f32⟩) main_v31) select,
    unary main_v31 main_v32 (id : (⟨S16777216, .f32⟩ : BufTy).Contents (Elt F) → (⟨S16777216, .f32⟩ : BufTy).Contents (Elt F)),
    unary main_v10 main_v33 ((transpose S100x4096 [1, 0] · transposes_S4096x100_S100x4096_1_0) : (⟨S4096x100, .f32⟩ : BufTy).Contents (Elt F) → (⟨S100x4096, .f32⟩ : BufTy).Contents (Elt F)),
    binary main_v21 main_v33 main_v34 ((fun l r => Host.dotGeneral dot_S4096x100_S100x4096_S4096x4096_1_0_0_1_n_n none l r) : (⟨S4096x100, .f32⟩ : BufTy).Contents (Elt F) → (⟨S100x4096, .f32⟩ : BufTy).Contents (Elt F) → (⟨S4096x4096, .f32⟩ : BufTy).Contents (Elt F)),
    reshape main_v34 main_v35 rfl shapeCasts_S4096x4096_S16777216,
    binary main_v35 main_v32 main_v36 (mulf : (⟨S16777216, .f32⟩ : BufTy).Contents (Elt F) → (⟨S16777216, .f32⟩ : BufTy).Contents (Elt F) → (⟨S16777216, .f32⟩ : BufTy).Contents (Elt F)),
    nullary main_cst_9 (constant S_ .f32 0xBF800000#32),
    unary main_cst_9 main_v37 (broadcastInDim S16777216 ![] bcast_S_S16777216 : (⟨S_, .f32⟩ : BufTy).Contents (Elt F) → (⟨S16777216, .f32⟩ : BufTy).Contents (Elt F)),
    binary main_v32 main_v37 main_v38 (cmpf .oeq : (⟨S16777216, .f32⟩ : BufTy).Contents (Elt F) → (⟨S16777216, .f32⟩ : BufTy).Contents (Elt F) → (⟨S16777216, .i1⟩ : BufTy).Contents (Elt F)),
    unary main_v38 main_v39 (uitofp .f32 : (⟨S16777216, .i1⟩ : BufTy).Contents (Elt F) → (⟨S16777216, .f32⟩ : BufTy).Contents (Elt F)),
    binary main_v36 main_v39 main_v40 (addf : (⟨S16777216, .f32⟩ : BufTy).Contents (Elt F) → (⟨S16777216, .f32⟩ : BufTy).Contents (Elt F) → (⟨S16777216, .f32⟩ : BufTy).Contents (Elt F)),
    nullary main_cst_10 (constant S_ .f32 0x33D6BF95#32),
    unary main_cst_10 main_v41 (broadcastInDim S16777216 ![] bcast_S_S16777216 : (⟨S_, .f32⟩ : BufTy).Contents (Elt F) → (⟨S16777216, .f32⟩ : BufTy).Contents (Elt F)),
    binary main_v40 main_v41 main_v42 (addf : (⟨S16777216, .f32⟩ : BufTy).Contents (Elt F) → (⟨S16777216, .f32⟩ : BufTy).Contents (Elt F) → (⟨S16777216, .f32⟩ : BufTy).Contents (Elt F)),
    unary main_v42 main_v43 (Host.log : (⟨S16777216, .f32⟩ : BufTy).Contents (Elt F) → (⟨S16777216, .f32⟩ : BufTy).Contents (Elt F)),
    unary main_v43 main_v44 (Host.negf : (⟨S16777216, .f32⟩ : BufTy).Contents (Elt F) → (⟨S16777216, .f32⟩ : BufTy).Contents (Elt F)),
    nullary main_cst_11 (constant S_ .f32 0x00000000#32),
    unary main_cst_11 main_v45 (broadcastInDim S16777216 ![] bcast_S_S16777216 : (⟨S_, .f32⟩ : BufTy).Contents (Elt F) → (⟨S16777216, .f32⟩ : BufTy).Contents (Elt F)),
    binary main_v32 main_v45 main_v46 (cmpf .une : (⟨S16777216, .f32⟩ : BufTy).Contents (Elt F) → (⟨S16777216, .f32⟩ : BufTy).Contents (Elt F) → (⟨S16777216, .i1⟩ : BufTy).Contents (Elt F)),
    unary main_v46 main_v47 (uitofp .f32 : (⟨S16777216, .i1⟩ : BufTy).Contents (Elt F) → (⟨S16777216, .f32⟩ : BufTy).Contents (Elt F)),
    nullary main_cst_12 (constant S_ .f32 0x00000000#32),
    binary main_v47 main_cst_12 main_v48 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v44 main_v47 main_v49 (mulf : (⟨S16777216, .f32⟩ : BufTy).Contents (Elt F) → (⟨S16777216, .f32⟩ : BufTy).Contents (Elt F) → (⟨S16777216, .f32⟩ : BufTy).Contents (Elt F)),
    nullary main_cst_13 (constant S_ .f32 0x00000000#32),
    binary main_v48 main_cst_13 main_v50 (cmpf .ogt : (⟨S_, .f32⟩ : BufTy).Contents (Elt F) → (⟨S_, .f32⟩ : BufTy).Contents (Elt F) → (⟨S_, .i1⟩ : BufTy).Contents (Elt F)),
    nullary main_cst_14 (constant S_ .f32 0x00000000#32),
    binary main_v49 main_cst_14 main_v51 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_15 (constant S_ .f32 0x3F800000#32),
    binary main_v48 main_cst_15 main_v52 (maximumf : (⟨S_, .f32⟩ : BufTy).Contents (Elt F) → (⟨S_, .f32⟩ : BufTy).Contents (Elt F) → (⟨S_, .f32⟩ : BufTy).Contents (Elt F)),
    binary main_v51 main_v52 main_v53 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v49 main_cst_16 main_v54 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_17 (constant S_ .f32 0x4B800000#32),
    binary main_v54 main_cst_17 main_v55 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v50) (TRef.of (T := ⟨S_, .f32⟩) main_v53) (TRef.of (T := ⟨S_, .f32⟩) main_v55) (TRef.of (T := ⟨S_, .f32⟩) main_v56) select ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., reshape_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., reshape_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., ternary_bufs_sub ..⟩

set_option maxRecDepth 8192 in
set_option maxHeartbeats 33600000 in
/-- Every weakly fair execution of the reference terminates with the loss and the flattened labels in its two result
    buffers, as the stages compute them from the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = lossOf (m ((c.tc : Thread nD τ).loc main_arg0)) (m ((c.tc : Thread nD τ).loc main_arg1)) (m ((c.tc : Thread nD τ).loc main_arg2))
      ∧ r.2.mem ((c.tc : Thread nD τ).loc main_v32) = labelFlat (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v56).trans (by after_results_simp <;> rfl),
      (h c main_v32).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Hand

end
-- ==== Proof.RefRead.lean ====
/-
  The reference, read. Row p of the unit-length array is the unit row of row p; entry (a, b) of the matrix of cosines
  is the cosine of rows a and b; the flattened labels are the row-major reshape of the matrix of labels; and the loss —
  a guarded quotient of the masked costs' sum by the number of unmasked pairs — is the mean of the costs over all pairs,
  because a label is never 0 and the product-plus-indicator form of the log's argument is the selected form.
-/
import proofs.«131518_j87393994539652_2_alg».proof.Proof.RefRun
import proofs.«131518_j87393994539652_2_alg».proof.Proof.RowReads
import proofs.«131518_j87393994539652_2_alg».proof.Proof.SumLaws
import Idealize.ShloMosaic.Lib.ValueIdx
import Idealize.ShloMosaic.PureOps.Ideal.Laws

noncomputable section

namespace Cert.ReferenceIdeal.HandRead

open Cert.ReferenceIdeal Cert.ReferenceIdeal.Gen Cert.ReferenceIdeal.Hand Idealize.ShloMosaic Idealize.ShloMosaic.ValueIdx
open Cert.ClusterSpec Cert.SumLaws Cert.Proof.LibLaneReads

variable (x0 : FVec Ideal S4096x256 .f32) (x1 x2 : FVec Ideal S4096x100 .f32)

/-- Row a of the feature array, of the first and of the second logit array. -/
abbrev featRow (a : Fin 4096) : Fin 256 → EReal := fun k => x0 (ix2 a k)
abbrev logit1Row (a : Fin 4096) : Fin 100 → EReal := fun k => x1 (ix2 a k)
abbrev logit2Row (a : Fin 4096) : Fin 100 → EReal := fun k => x2 (ix2 a k)

theorem unitAll_apply (p : Fin 4096) (q : Fin 256) : unitAll (F := Ideal) x0 (ix2 p q) = unitRow (featRow x0 p) q :=
  Cert.RowReads.arrUnit_apply (a := 4096) x0 reducesTo_S4096x256_S4096_d1 (by decide) h_S_ bcast_S4096_S4096x1_0
    bcast_S4096x1_S4096x256_0_1 bcast_S_S4096x1 p q

theorem softAll_apply (x : FVec Ideal S4096x100 .f32) (p : Fin 4096) (c : Fin 100) :
    softAll (F := Ideal) x (ix2 p c) = softRow (fun k => x (ix2 p k)) c :=
  Cert.RowReads.arrSoft_apply (a := 4096) x reducesTo_S4096x100_S4096_d1 (by decide) h_S_ bcast_S4096_S4096x1_0
    bcast_S4096x1_S4096x100_0_1 bcast_S_S4096 p c

theorem cosAll_apply (a b : Fin 4096) : cosAll (F := Ideal) x0 (ix2 a b) = cosine (featRow x0 a) (featRow x0 b) := by
  unfold cosAll
  rw [Cert.Proof.LibLaneReads.dotT_apply (unitAll (F := Ideal) x0) (unitAll (F := Ideal) x0) transposes_S4096x256_S256x4096_1_0
    dot_S4096x256_S256x4096_S4096x4096_1_0_0_1_n_n rfl a b]
  unfold cosine
  refine Finset.sum_congr rfl fun k _ => ?_
  rw [unitAll_apply, unitAll_apply]

theorem agreeAll_apply (a b : Fin 4096) : agreeAll (F := Ideal) x1 x2 (ix2 a b) = agree (logit2Row x2 a) (logit1Row x1 b) := by
  unfold agreeAll
  rw [Cert.Proof.LibLaneReads.dotT_apply (softAll (F := Ideal) x2) (softAll (F := Ideal) x1) transposes_S4096x100_S100x4096_1_0
    dot_S4096x100_S100x4096_S4096x4096_1_0_0_1_n_n rfl a b]
  unfold agree
  refine Finset.sum_congr rfl fun k _ => ?_
  rw [softAll_apply, softAll_apply]

/-- The matrix of labels and the matrix of costs. -/
def labelMat : S4096x4096.Idx → EReal := fun j =>
  label (featRow x0 (j 0 : Fin 4096)) (featRow x0 (j 1 : Fin 4096))
def costMat : S4096x4096.Idx → EReal := fun j =>
  cost (featRow x0 (j 0 : Fin 4096)) (featRow x0 (j 1 : Fin 4096)) (logit2Row x2 (j 0 : Fin 4096)) (logit1Row x1 (j 1 : Fin 4096))

/-- A flattened label, from the matrix entry with the same row-major position. -/
theorem labelFlat_apply (i : S16777216.Idx) :
    labelFlat (F := Ideal) x0 i = labelMat x0 (Shape.reshapeEquiv shapeCasts_S4096x4096_S16777216 i) := by
  show Scalar.select (Ideal.cmp .ogt (cosAll (F := Ideal) x0 (Shape.reshapeEquiv shapeCasts_S4096x4096_S16777216 i)) (Ideal.ofBits .f32 0x3F733333#32))
      (Ideal.ofBits .f32 0x3F800000#32) (Ideal.ofBits .f32 0xBF800000#32) = _
  generalize Shape.reshapeEquiv shapeCasts_S4096x4096_S16777216 i = j
  obtain ⟨a, b, rfl⟩ : ∃ (a b : Fin 4096), j = ix2 a b := ⟨j 0, j 1, eq_ix2 j⟩
  rw [cosAll_apply]
  rfl

/-- The flattened labels are the reshape of the matrix of labels. -/
theorem labelFlat_eq : labelFlat (F := Ideal) x0 = shapeCast S16777216 (labelMat x0) shapeCasts_S4096x4096_S16777216 :=
  funext fun i => labelFlat_apply x0 i

/-- A flattened, masked cost is the matrix entry with the same row-major position. -/
theorem maskedCost_apply (i : S16777216.Idx) :
    costFlat (F := Ideal) x0 x1 x2 i * maskFlat (F := Ideal) x0 i = costMat x0 x1 x2 (Shape.reshapeEquiv shapeCasts_S4096x4096_S16777216 i) := by
  show (-(Ideal.log (agreeAll (F := Ideal) x1 x2 (Shape.reshapeEquiv shapeCasts_S4096x4096_S16777216 i) * labelFlat (F := Ideal) x0 i
        + FloatOps.uitofp (F := Ideal) .f32 (Ideal.cmp .oeq (labelFlat (F := Ideal) x0 i) (Ideal.ofBits .f32 0xBF800000#32))
        + Ideal.ofBits .f32 0x33D6BF95#32)))
      * FloatOps.uitofp (F := Ideal) .f32 (Ideal.cmp .une (labelFlat (F := Ideal) x0 i) (Ideal.ofBits .f32 0x00000000#32)) = _
  rw [labelFlat_apply]
  generalize Shape.reshapeEquiv shapeCasts_S4096x4096_S16777216 i = j
  obtain ⟨a, b, rfl⟩ : ∃ (a b : Fin 4096), j = ix2 a b := ⟨j 0, j 1, eq_ix2 j⟩
  unfold labelMat label
  rw [mask_term, mul_one, pair_term, agreeAll_apply]
  rfl

theorem mask_apply (i : S16777216.Idx) : maskFlat (F := Ideal) x0 i = 1 := by
  show FloatOps.uitofp (F := Ideal) .f32 (Ideal.cmp .une (labelFlat (F := Ideal) x0 i) (Ideal.ofBits .f32 0x00000000#32)) = 1
  rw [labelFlat_apply]
  unfold labelMat label
  exact mask_term _

/-- A sum over the flattened pairs is the double sum over rows and columns of the matrix. -/
theorem sum_flat (g : S4096x4096.Idx → EReal) :
    ∑ i : S16777216.Idx, g (Shape.reshapeEquiv shapeCasts_S4096x4096_S16777216 i)
      = ∑ a : Fin 4096, ∑ b : Fin 4096, g (ix2 a b) := by
  rw [Equiv.sum_comp (Shape.reshapeEquiv shapeCasts_S4096x4096_S16777216) g]
  exact sum_idx2 g

/-- The guarded quotient of two scalars, read at the one index. -/
theorem guarded_apply (D S : FVec Ideal S_ .f32) (j : S_.Idx) :
    select (cmpf .ogt D (constant (F := Ideal) S_ .f32 0x00000000#32))
        (Host.divf (F := Ideal) S (maximumf D (constant (F := Ideal) S_ .f32 0x3F800000#32)))
        (Host.divf (F := Ideal) S (constant (F := Ideal) S_ .f32 0x4B800000#32)) j
      = Scalar.select (Ideal.cmp .ogt (D j) (Ideal.ofBits .f32 0x00000000#32))
          (Ideal.div (S j) (max (D j) (Ideal.ofBits .f32 0x3F800000#32))) (Ideal.div (S j) (Ideal.ofBits .f32 0x4B800000#32)) := rfl

/-- The reference's loss is the mean of the costs over all pairs. -/
theorem lossOf_apply (j : S_.Idx) :
    lossOf (F := Ideal) x0 x1 x2 j = meanOver (fun a b => cost (featRow x0 a) (featRow x0 b) (logit2Row x2 a) (logit1Row x1 b)) := by
  have hD : Host.reduceAdd (F := Ideal) (maskFlat (F := Ideal) x0) (constant (F := Ideal) S_ .f32 0x00000000#32) reducesTo_S16777216_S_d0 h_S_ j
      = ((16777216 : ℝ) : EReal) := by
    rw [hostTotal_apply]
    show Ideal.ofBits .f32 0x00000000#32 + _ = _
    rw [Ideal.ofBits_zero_f32, zero_add, Finset.sum_congr rfl fun i _ => mask_apply x0 i]
    exact (sum_flat (fun _ => (1 : EReal))).trans count_pairs
  have hS : Host.reduceAdd (F := Ideal) (mulf (costFlat (F := Ideal) x0 x1 x2) (maskFlat (F := Ideal) x0)) (constant (F := Ideal) S_ .f32 0x00000000#32)
      reducesTo_S16777216_S_d0 h_S_ j
      = ∑ a : Fin 4096, ∑ b : Fin 4096, cost (featRow x0 a) (featRow x0 b) (logit2Row x2 a) (logit1Row x1 b) := by
    rw [hostTotal_apply]
    show Ideal.ofBits .f32 0x00000000#32 + ∑ i : S16777216.Idx, costFlat (F := Ideal) x0 x1 x2 i * maskFlat (F := Ideal) x0 i = _
    rw [Ideal.ofBits_zero_f32, zero_add, Finset.sum_congr rfl fun i _ => maskedCost_apply x0 x1 x2 i]
    exact sum_flat (costMat x0 x1 x2)
  unfold lossOf
  rw [guarded_apply, guarded_mean _ _ hD, hS]
  rfl

end Cert.ReferenceIdeal.HandRead

end
-- ==== Proof.lean ====
/-
  The claim, assembled. Both programs compute, for 4096 samples with a feature row and two logit rows each, the label of
  every ordered pair of samples (+1 when the cosine of the two unit-length feature rows exceeds the threshold, −1
  otherwise) and the mean over all pairs of −log(agreement + ε) for near pairs and −log(1 − agreement + ε) for the others,
  the agreement being the inner product of the two samples' probability rows.

  The kernel walks a 4 × 8 grid of 1024 × 512 tiles of pairs: it stores each tile's labels, keeps a one-entry running sum
  of the tile costs along a row of tiles, and writes the row's total once; the host adds the four totals and divides by
  2²⁴. The reference forms the two 4096 × 4096 matrices whole, flattens them, and takes a masked mean whose mask is 1
  everywhere. Entry by entry the two are the same extended reals: the row operations are the same functions of the same
  rows, P · label + [label = −1] is the selected P or 1 − P, the mask never vanishes, and a sum over all pairs may be taken
  tile by tile. No finiteness of the inputs is needed for any of it.

  The frames of the two kernel programs are the generated ones; the reference's frame is its run with the results dropped;
  the idealization rewrote nothing.
-/
import proofs.«131518_j87393994539652_2_alg».proof.Defs
import proofs.«131518_j87393994539652_2_alg».proof.Proof.Gen.Kernel
import proofs.«131518_j87393994539652_2_alg».proof.Proof.Gen.Kernel.Skeleton
import proofs.«131518_j87393994539652_2_alg».proof.Proof.Gen.Kernel.Launch
import proofs.«131518_j87393994539652_2_alg».proof.Proof.Gen.Kernel.Points
import proofs.«131518_j87393994539652_2_alg».proof.Proof.Gen.Kernel.Frame
import proofs.«131518_j87393994539652_2_alg».proof.Proof.Gen.KernelIdeal
import proofs.«131518_j87393994539652_2_alg».proof.Proof.Gen.KernelIdeal.Skeleton
import proofs.«131518_j87393994539652_2_alg».proof.Proof.Gen.KernelIdeal.Launch
import proofs.«131518_j87393994539652_2_alg».proof.Proof.Gen.KernelIdeal.Points
import proofs.«131518_j87393994539652_2_alg».proof.Proof.Gen.KernelIdeal.Frame
import proofs.«131518_j87393994539652_2_alg».proof.Proof.Gen.ReferenceIdeal
import proofs.«131518_j87393994539652_2_alg».proof.Proof.Gen.Pre_finite_inputs
import proofs.«131518_j87393994539652_2_alg».proof.Proof.KTail
import proofs.«131518_j87393994539652_2_alg».proof.Proof.RefRun
import proofs.«131518_j87393994539652_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what the results hold forgotten. -/
theorem frame_ri : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

/-- From memories that agree on the arguments both programs end with the mean cost and the flattened labels of the
    kernel's arguments: the kernel by its run, the reference by its run read back (the loss as the mean over all pairs,
    the labels as the reshape of the matrix of labels). -/
theorem algebraic : Cert.algebraic_KernelIdeal_ReferenceIdeal := by
  intro m ρ m' ρ' _ hagree
  refine ⟨fun c => Cert.KernelIdeal.Tail.lossVal m c, fun c => Cert.KernelIdeal.Tail.labelsVal m c,
    Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Hand.run (F := Ideal) m' ρ')
  · rw [(hagree c).1, (hagree c).2.1, (hagree c).2.2.1]
    funext j
    exact Cert.ReferenceIdeal.HandRead.lossOf_apply _ _ _ j
  · rw [(hagree c).1]
    exact Cert.ReferenceIdeal.HandRead.labelFlat_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
